-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S8x32 : Shape := ⟨2, ![8, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S32 .f32) (main_arg13 : FVec F S32x3 .f32) (main_arg14 : FVec F S3 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x3 .f32 := Host.absf main_arg13
  let main_cst_22 : FVec F S_ .f32 := constant S_ .f32 0x7F800000#32
  let main_v60 : FVec F S32x3 .f32 := broadcastInDim S32x3 ![] bcast_S_S32x3 main_cst_22
  let main_v61 : IVec S32x3 1 := cmpf .olt main_v59 main_v60
  let main_c_23 : IVec S_ 1 := constantI S_ 1 1#1
  let main_v62 : IVec S_ 1 := (fun x v => Host.reduce IntOp.andi x v reducesTo_S32x3_S_d0_1 h_S_) main_v61 main_c_23
  let main_v63 : IVec S_ 1 := andi main_v58 main_v62
  let main_v64 : FVec F S3 .f32 := Host.absf main_arg14
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_v63 main_v67

def fn_part2 {F : FTy → Type} [FloatOps F] (main_arg8 : FVec F S32x32 .f32) (main_arg9 : FVec F S32 .f32) (main_arg10 : FVec F S32x32 .f32) (main_arg11 : FVec F S32x32 .f32) (main_arg12 : FVec F S32 .f32) (main_arg13 : FVec F S32x3 .f32) (main_arg14 : FVec F S3 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32x32 .f32 := Host.absf main_arg11
  let main_cst_18 : FVec F S_ .f32 := constant S_ .f32 0x7F800000#32
  let main_v50 : FVec F S32x32 .f32 := broadcastInDim S32x32 ![] bcast_S_S32x32 main_cst_18
  fn_part3 (F := F) main_arg12 main_arg13 main_arg14 main_v48 main_v49 main_v50

def fn_part1 {F : FTy → Type} [FloatOps F] (main_arg5 : FVec F S32x32 .f32) (main_arg6 : FVec F S32 .f32) (main_arg7 : FVec F S32x32 .f32) (main_arg8 : FVec F S32x32 .f32) (main_arg9 : FVec F S32 .f32) (main_arg10 : FVec F S32x32 .f32) (main_arg11 : FVec F S32x32 .f32) (main_arg12 : FVec F S32 .f32) (main_arg13 : FVec F S32x3 .f32) (main_arg14 : FVec F S3 .f32) (main_v13 : IVec S_ 1) (main_v16 : IVec S8x32 1) : IVec S_ 1 :=
  let main_c_5 : IVec S_ 1 := constantI S_ 1 1#1
  let main_v17 : IVec S_ 1 := (fun x v => Host.reduce IntOp.andi x v reducesTo_S8x32_S_d0_1 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x8 .f32) (main_arg1 : IVec S2x1600000 32) (main_arg2 : FVec F S8x32 .f32) (main_arg3 : FVec F S32 .f32) (main_arg4 : FVec F S8x32 .f32) (main_arg5 : FVec F S32x32 .f32) (main_arg6 : FVec F S32 .f32) (main_arg7 : FVec F S32x32 .f32) (main_arg8 : FVec F S32x32 .f32) (main_arg9 : FVec F S32 .f32) (main_arg10 : FVec F S32x32 .f32) (main_arg11 : FVec F S32x32 .f32) (main_arg12 : FVec F S32 .f32) (main_arg13 : FVec F S32x3 .f32) (main_arg14 : FVec F S3 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x32 .f32 := Host.absf main_arg2
  let main_cst_0 : FVec F S_ .f32 := constant S_ .f32 0x7F800000#32
  let main_v5 : FVec F S8x32 .f32 := broadcastInDim S8x32 ![] bcast_S_S8x32 main_cst_0
  let main_v6 : IVec S8x32 1 := cmpf .olt main_v4 main_v5
  let main_c_1 : IVec S_ 1 := constantI S_ 1 1#1
  let main_v7 : IVec S_ 1 := (fun x v => Host.reduce IntOp.andi x v reducesTo_S8x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S8x32 .f32 := Host.absf main_arg4
  let main_cst_4 : FVec F S_ .f32 := constant S_ .f32 0x7F800000#32
  let main_v15 : FVec F S8x32 .f32 := broadcastInDim S8x32 ![] bcast_S_S8x32 main_cst_4
  let main_v16 : IVec S8x32 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x8 : Shape := ⟨2, ![100000, 8]⟩
abbrev S2x1600000 : Shape := ⟨2, ![2, 1600000]⟩
abbrev S8x32 : Shape := ⟨2, ![8, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x8 : Shape := ⟨2, ![1600000, 8]⟩
abbrev S100000 : Shape := ⟨1, ![100000]⟩
abbrev S100000x1 : Shape := ⟨2, ![100000, 1]⟩
abbrev S1x32 : Shape := ⟨2, ![1, 32]⟩
abbrev S100000x32 : Shape := ⟨2, ![100000, 32]⟩
abbrev S10000x8 : Shape := ⟨2, ![10000, 8]⟩
abbrev S10000x32 : Shape := ⟨2, ![10000, 32]⟩
abbrev S1600000x32 : Shape := ⟨2, ![1600000, 32]⟩
abbrev S1x3 : Shape := ⟨2, ![1, 3]⟩
abbrev S100000x3 : Shape := ⟨2, ![100000, 3]⟩
abbrev S10000x3 : Shape := ⟨2, ![10000, 3]⟩

abbrev nBuf : Space → Nat
  | .hbm => 103
  | .vmem => 35
  | .smem => 0
  | _ => 0

abbrev bufTy : (tb : Table) → Fin (tcTables nBuf tb) → BufTy
  | .hbm, ⟨0, _⟩ => ⟨S100000x8, .f32⟩
  | .hbm, ⟨1, _⟩ => ⟨S2x1600000, .i32⟩
  | .hbm, ⟨2, _⟩ => ⟨S8x32, .f32⟩
  | .hbm, ⟨3, _⟩ => ⟨S32, .f32⟩
  | .hbm, ⟨4, _⟩ => ⟨S8x32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32x32, .f32⟩
  | .hbm, ⟨12, _⟩ => ⟨S32, .f32⟩
  | .hbm, ⟨13, _⟩ => ⟨S32x3, .f32⟩
  | .hbm, ⟨14, _⟩ => ⟨S3, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x8, .f32⟩
  | .hbm, ⟨28, _⟩ => ⟨S_, .f32⟩
  | .hbm, ⟨29, _⟩ => ⟨S100000x8, .f32⟩
  | .hbm, ⟨30, _⟩ => ⟨S1600000x1, .i32⟩
  | .hbm, ⟨31, _⟩ => ⟨S100000x8, .f32⟩
  | .hbm, ⟨32, _⟩ => ⟨S_, .f32⟩
  | .hbm, ⟨33, _⟩ => ⟨S1600000, .f32⟩
  | .hbm, ⟨34, _⟩ => ⟨S_, .f32⟩
  | .hbm, ⟨35, _⟩ => ⟨S100000, .f32⟩
  | .hbm, ⟨36, _⟩ => ⟨S1600000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x8, .f32⟩
  | .hbm, ⟨43, _⟩ => ⟨S100000x8, .f32⟩
  | .hbm, ⟨44, _⟩ => ⟨S1x32, .f32⟩
  | .hbm, ⟨45, _⟩ => ⟨S100000x32, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x32, .f32⟩
  | .hbm, ⟨55, _⟩ => ⟨S_, .f32⟩
  | .hbm, ⟨56, _⟩ => ⟨S100000x32, .f32⟩
  | .hbm, ⟨57, _⟩ => ⟨S1600000x1, .i32⟩
  | .hbm, ⟨58, _⟩ => ⟨S100000x32, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x32, .f32⟩
  | .hbm, ⟨70, _⟩ => ⟨S100000x32, .f32⟩
  | .hbm, ⟨71, _⟩ => ⟨S1x32, .f32⟩
  | .hbm, ⟨72, _⟩ => ⟨S100000x32, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x32, .f32⟩
  | .hbm, ⟨82, _⟩ => ⟨S_, .f32⟩
  | .hbm, ⟨83, _⟩ => ⟨S100000x32, .f32⟩
  | .hbm, ⟨84, _⟩ => ⟨S1600000x1, .i32⟩
  | .hbm, ⟨85, _⟩ => ⟨S100000x32, .f32⟩
  | .hbm, ⟨86, _⟩ => ⟨S_, .f32⟩
  | .hbm, ⟨87, _⟩ => ⟨S1600000, .f32⟩
  | .hbm, ⟨88, _⟩ => ⟨S_, .f32⟩
  | .hbm, ⟨89, _⟩ => ⟨S100000, .f32⟩
  | .hbm, ⟨90, _⟩ => ⟨S1600000x1, .i32⟩
  | .hbm, ⟨91, _⟩ => ⟨S100000, .f32⟩
  | .hbm, ⟨92, _⟩ => ⟨S_, .f32⟩
  | .hbm, ⟨93, _⟩ => ⟨S100000, .f32⟩
  | .hbm, ⟨94, _⟩ => ⟨S100000, .f32⟩
  | .hbm, ⟨95, _⟩ => ⟨S100000x1, .f32⟩
  | .hbm, ⟨96, _⟩ => ⟨S100000x32, .f32⟩
  | .hbm, ⟨97, _⟩ => ⟨S100000x32, .f32⟩
  | .hbm, ⟨98, _⟩ => ⟨S1x32, .f32⟩
  | .hbm, ⟨99, _⟩ => ⟨S100000x32, .f32⟩
  | .hbm, ⟨100, _⟩ => ⟨S1x32, .f32⟩
  | .hbm, ⟨101, _⟩ => ⟨S1x3, .f32⟩
  | .hbm, ⟨102, _⟩ => ⟨S100000x3, .f32⟩
  | .local _ .vmem, ⟨0, _⟩ => ⟨S10000x8, .f32⟩
  | .local _ .vmem, ⟨1, _⟩ => ⟨S10000x8, .f32⟩
  | .local _ .vmem, ⟨2, _⟩ => ⟨S10000x8, .f32⟩
  | .local _ .vmem, ⟨3, _⟩ => ⟨S10000x8, .f32⟩
  | .local _ .vmem, ⟨4, _⟩ => ⟨S8x32, .f32⟩
  | .local _ .vmem, ⟨5, _⟩ => ⟨S1x32, .f32⟩
  | .local _ .vmem, ⟨6, _⟩ => ⟨S8x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S32x32, .f32⟩
  | .local _ .vmem, ⟨14, _⟩ => ⟨S1x32, .f32⟩
  | .local _ .vmem, ⟨15, _⟩ => ⟨S32x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x32, .f32⟩
  | .local _ .vmem, ⟨23, _⟩ => ⟨S1x32, .f32⟩
  | .local _ .vmem, ⟨24, _⟩ => ⟨S32x32, .f32⟩
  | .local _ .vmem, ⟨25, _⟩ => ⟨S10000x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S32x32, .f32⟩
  | .local _ .vmem, ⟨30, _⟩ => ⟨S1x32, .f32⟩
  | .local _ .vmem, ⟨31, _⟩ => ⟨S32x3, .f32⟩
  | .local _ .vmem, ⟨32, _⟩ => ⟨S1x3, .f32⟩
  | .local _ .vmem, ⟨33, _⟩ => ⟨S10000x3, .f32⟩
  | .local _ .vmem, ⟨34, _⟩ => ⟨S10000x3, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_10 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_15 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x3 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x3 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x3 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  shapeCasts_S32_S1x32 : S32.ShapeCasts S1x32
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  bitsLt_bf16_f32 : FTy.bits .bf16 < FTy.bits .f32
  inb_S8x32_S8x32_0_0 : ∀ a, (![0, 0] : Fin 2 → Nat) a + S8x32.size a ≤ S8x32.size a
  h_S8x32 : 0 < S8x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S3_S1x3 : S3.ShapeCasts S1x3
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  scatter_S100000_S1600000x1_S1600000_n_0_0_1_wf : ScatterDims.WF S100000 S1600000x1 S1600000 [] [0] [0] 1
  dot_S10000x8_S8x32_S10000x32_1_0_0_1_n_n_wf : DotDims.WF S10000x8 S8x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  dot_S10000x32_S32x3_S10000x3_1_0_0_1_n_n_wf : DotDims.WF S10000x32 S32x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x8.size a ≤ S100000x8.size a
  hwx0_0 : ∀ i : grid0.Coords, EltTy.bits .f32 = 32 ∨ (Rect.block (s := S100000x8) S10000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x8.size a ≤ S100000x8.size a
  hwx0_1 : ∀ i : grid0.Coords, EltTy.bits .f32 = 32 ∨ (Rect.block (s := S100000x8) S10000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S8x32.size a
  hwx0_2 : ∀ i : grid0.Coords, EltTy.bits .f32 = 32 ∨ (Rect.block (s := S8x32) S8x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x32.size a ≤ S8x32.size a
  hwx0_4 : ∀ i : grid0.Coords, EltTy.bits .f32 = 32 ∨ (Rect.block (s := S8x32) S8x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x32.size a ≤ S100000x32.size a
  hwx2_5 : ∀ i : grid2.Coords, EltTy.bits .f32 = 32 ∨ (Rect.block (s := S100000x32) S10000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x3.size a ≤ S32x3.size a
  hwx3_3 : ∀ i : grid3.Coords, EltTy.bits .f32 = 32 ∨ (Rect.block (s := S32x3) S32x3.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x3.size a ≤ S1x3.size a
  hwx3_4 : ∀ i : grid3.Coords, EltTy.bits .f32 = 32 ∨ (Rect.block (s := S1x3) S1x3.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x3.size a ≤ S100000x3.size a
  hwx3_5 : ∀ i : grid3.Coords, EltTy.bits .f32 = 32 ∨ (Rect.block (s := S100000x3) S10000x3.size (cc3_transform_5 i) (hinb3_5 i)).WholeWords (EltTy.packing .f32)

variable [Facts₀]

def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x8_S8x32_S10000x32_1_0_0_1_n_n : DotDims S10000x8 S8x32 S10000x32 where
  lhsContracting := [1]
  rhsContracting := [0]
  lhsNonContracting := [0]
  rhsNonContracting := [1]
  lhsBatch := []
  rhsBatch := []
  wf := dot_S10000x8_S8x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x3_S10000x3_1_0_0_1_n_n : DotDims S10000x32 S32x3 S10000x3 where
  lhsContracting := [1]
  rhsContracting := [0]
  lhsNonContracting := [0]
  rhsNonContracting := [1]
  lhsBatch := []
  rhsBatch := []
  wf := dot_S10000x32_S32x3_S10000x3_1_0_0_1_n_n_wf

abbrev win0_0 : Pipeline.Window sig grid0 :=
  Pipeline.Window.ofSpec (Memref.whole main_v22) S10000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S10000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S32x3.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x3.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S10000x3.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x8 : Shape := ⟨2, ![100000, 8]⟩
abbrev S2x1600000 : Shape := ⟨2, ![2, 1600000]⟩
abbrev S8x32 : Shape := ⟨2, ![8, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x8 : Shape := ⟨2, ![1600000, 8]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩
abbrev S100000x3 : Shape := ⟨2, ![100000, 3]⟩
abbrev S1x3 : Shape := ⟨2, ![1, 3]⟩

abbrev nBuf : Space → Nat
  | .hbm => 132
  | .vmem => 0
  | .smem => 0
  | _ => 0

abbrev hbmTy0_0 (i : Nat) : BufTy := match i % 128 with
  | 0 => ⟨S100000x8, .f32⟩
  | 1 => ⟨S2x1600000, .i32⟩
  | 2 => ⟨S8x32, .f32⟩
  | 3 => ⟨S32, .f32⟩
  | 4 => ⟨S8x32, .f32⟩
  | 5 => ⟨S32x32, .f32⟩
  | 6 => ⟨S32, .f32⟩
  | 7 => ⟨S32x32, .f32⟩
  | 8 => ⟨S32x32, .f32⟩
  | 9 => ⟨S32, .f32⟩
  | 10 => ⟨S32x32, .f32⟩
  | 11 => ⟨S32x32, .f32⟩
  | 12 => ⟨S32, .f32⟩
  | 13 => ⟨S32x3, .f32⟩
  | 14 => ⟨S3, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x8, .f32⟩
  | 28 => ⟨S_, .f32⟩
  | 29 => ⟨S100000x8, .f32⟩
  | 30 => ⟨S1600000x1, .i32⟩
  | 31 => ⟨S100000x8, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x8, .f32⟩
  | 43 => ⟨S100000x8, .f32⟩
  | 44 => ⟨S100000x32, .f32⟩
  | 45 => ⟨S1x32, .f32⟩
  | 46 => ⟨S100000x32, .f32⟩
  | 47 => ⟨S100000x32, .f32⟩
  | 48 => ⟨S100000x32, .f32⟩
  | 49 => ⟨S100000x32, .f32⟩
  | 50 => ⟨S_, .f32⟩
  | 51 => ⟨S100000x32, .f32⟩
  | 52 => ⟨S100000x32, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x32, .f32⟩
  | 62 => ⟨S_, .f32⟩
  | 63 => ⟨S100000x32, .f32⟩
  | 64 => ⟨S1600000x1, .i32⟩
  | 65 => ⟨S100000x32, .f32⟩
  | 66 => ⟨S_, .f32⟩
  | 67 => ⟨S1600000, .f32⟩
  | 68 => ⟨S_, .f32⟩
  | 69 => ⟨S100000, .f32⟩
  | 70 => ⟨S1600000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x32, .f32⟩
  | 77 => ⟨S100000x32, .f32⟩
  | 78 => ⟨S100000x32, .f32⟩
  | 79 => ⟨S1x32, .f32⟩
  | 80 => ⟨S100000x32, .f32⟩
  | 81 => ⟨S100000x32, .f32⟩
  | 82 => ⟨S100000x32, .f32⟩
  | 83 => ⟨S100000x32, .f32⟩
  | 84 => ⟨S_, .f32⟩
  | 85 => ⟨S100000x32, .f32⟩
  | 86 => ⟨S100000x32, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x32, .f32⟩
  | 96 => ⟨S_, .f32⟩
  | 97 => ⟨S100000x32, .f32⟩
  | 98 => ⟨S1600000x1, .i32⟩
  | 99 => ⟨S100000x32, .f32⟩
  | 100 => ⟨S_, .f32⟩
  | 101 => ⟨S1600000, .f32⟩
  | 102 => ⟨S_, .f32⟩
  | 103 => ⟨S100000, .f32⟩
  | 104 => ⟨S1600000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x32, .f32⟩
  | 111 => ⟨S100000x32, .f32⟩
  | 112 => ⟨S100000x32, .f32⟩
  | 113 => ⟨S1x32, .f32⟩
  | 114 => ⟨S100000x32, .f32⟩
  | 115 => ⟨S100000x32, .f32⟩
  | 116 => ⟨S100000x32, .f32⟩
  | 117 => ⟨S100000x32, .f32⟩
  | 118 => ⟨S_, .f32⟩
  | 119 => ⟨S100000x32, .f32⟩
  | 120 => ⟨S100000x32, .f32⟩
  | 121 => ⟨S100000x32, .f32⟩
  | 122 => ⟨S1x32, .f32⟩
  | 123 => ⟨S100000x32, .f32⟩
  | 124 => ⟨S100000x32, .f32⟩
  | 125 => ⟨S_, .f32⟩
  | 126 => ⟨S100000x32, .f32⟩
  | 127 => ⟨S100000x32, .f32⟩
  | _ => ⟨S100000x8, .f32⟩

abbrev hbmTy0_1 (i : Nat) : BufTy := match i % 128 with
  | 0 => ⟨S100000x3, .f32⟩
  | 1 => ⟨S1x3, .f32⟩
  | 2 => ⟨S100000x3, .f32⟩
  | 3 => ⟨S100000x3, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_cst : Ref sig .tc := ⟨.hbm, 50, rfl⟩
abbrev main_call0_v0 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call1_cst : Ref sig .tc := ⟨.hbm, 84, rfl⟩
abbrev main_call1_v0 : Ref sig .tc := ⟨.hbm, 85, rfl⟩
abbrev main_v55 : Ref sig .tc := ⟨.hbm, 86, rfl⟩
abbrev main_c_10 : Ref sig .tc := ⟨.hbm, 87, rfl⟩
abbrev main_v56 : Ref sig .tc := ⟨.hbm, 88, rfl⟩
abbrev main_v57 : Ref sig .tc := ⟨.hbm, 89, rfl⟩
abbrev main_c_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_call2_cst : Ref sig .tc := ⟨.hbm, 118, rfl⟩
abbrev main_call2_v0 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_call3_cst : Ref sig .tc := ⟨.hbm, 125, rfl⟩
abbrev main_call3_v0 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  scatter_S100000_S1600000x1_S1600000_n_0_0_1_wf : ScatterDims.WF S100000 S1600000x1 S1600000 [] [0] [0] 1
  dot_S100000x8_S8x32_S100000x32_1_0_0_1_n_n_wf : DotDims.WF S100000x8 S8x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x3_S100000x3_1_0_0_1_n_n_wf : DotDims.WF S100000x32 S32x3 S100000x3 [1] [0] [0] [1] [] []

variable [Facts₀]

def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x8_S8x32_S100000x32_1_0_0_1_n_n : DotDims S100000x8 S8x32 S100000x32 where
  lhsContracting := [1]
  rhsContracting := [0]
  lhsNonContracting := [0]
  rhsNonContracting := [1]
  lhsBatch := []
  rhsBatch := []
  wf := dot_S100000x8_S8x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x3_S100000x3_1_0_0_1_n_n : DotDims S100000x32 S32x3 S100000x3 where
  lhsContracting := [1]
  rhsContracting := [0]
  lhsNonContracting := [0]
  rhsNonContracting := [1]
  lhsBatch := []
  rhsBatch := []
  wf := dot_S100000x32_S32x3_S100000x3_1_0_0_1_n_n_wf

class Facts : Prop extends Facts₀ where

variable [Facts]
-- ==== Proof.KernelRun.lean ====
/-
  The kernel program's run with its result named.

  Every weakly fair execution of the program ends, without a fault, with the fifteen argument arrays as launched and
  with the result array holding what the last of its four kernel launches leaves in it: the contents `W8` of the
  boundary after the fourth region, read at the result's buffer. The run is the several-regions launch theorem over the
  program's eight segments (four stretches of host operations, four kernel regions); the last thread state holds every
  unscoped buffer at `W8`, and the post reads the result's buffer out of it beside the arguments'.
-/
import proofs.«108382_j89627377533571_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_with_result : θ_run defs (onTc (τ := τ) (main (F := F))) ⟨m, fun _ => 0, ρ⟩ (fun r => ∀ c : Dev nD,
      r.2.mem ((c.tc : Thread nD τ).loc main_v69) = W8 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v69 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.Named

end
-- ==== Proof.LibPlainDot.lean ====
/-
  A plain matrix product read at an index.

  For dimension numbers that contract the second axis of an [M, K] table with the first axis of a [K, N] table and keep
  the other two axes in order, the sum over the contraction index of the operands' products is the familiar
  Σ_k lhs (r, k) · rhs (k, c), with k ranging over `Fin K`. The four hypotheses say where the dimension numbers send
  an output index (r, c) and a contraction index: they hold by computation for every such record.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

/-- The contraction sum of a plain [M, K] × [K, N] product at output index `i`, over `k : Fin K`. -/
theorem sum_contr_eq {M K N : Nat} {R : Type*} [AddCommMonoid R] [Mul R]
    (d : DotDims ⟨2, ![M, K]⟩ ⟨2, ![K, N]⟩ ⟨2, ![M, N]⟩) (hr : d.contr.rank = 1)
    (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (lhs : (⟨2, ![M, K]⟩ : Shape).Idx → R) (rhs : (⟨2, ![K, N]⟩ : Shape).Idx → R) (i : (⟨2, ![M, N]⟩ : Shape).Idx) :
    ∑ q : d.contr.Idx, lhs (d.lhsIdx i q) * rhs (d.rhsIdx i q) = ∑ k : Fin K, lhs (ix2 (i 0) k) * rhs (ix2 k (i 1)) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact l0 _ _
    | ⟨1, _⟩ => exact (l1 _ _).trans hk)
  have er : d.rhsIdx i ((contrEquiv1 d K hr hs).symm k) = ix2 k (i 1) := funext fun a => Fin.ext (by
    match a with
    | ⟨0, _⟩ => exact (r0 _ _).trans hk
    | ⟨1, _⟩ => exact r1 _ _)
  exact congrArg₂ (· * ·) (congrArg lhs el) (congrArg rhs er)

end Idealize.ShloMosaic.PlainDot

end
-- ==== Proof.Payload.lean ====
/-
  What each kernel body computes, read at one entry of its output block, over the extended reals.

  A body loads a block of 10000 rows of each row-blocked operand and the small operands whole. Changing a number's format
  is the identity on the extended reals and a matrix product into the zero table is the plain sum of products, so at row
  `p`, column `q` of the block a layer's body gives
      max (Σ_k a[p,k]·wl[k,q] + b[0,q] + Σ_k x[p,k]·wr[k,q]) 0
  and the read-out's body
      Σ_j max (Σ_k h[p,k]·w1[k,j] + b1[0,j]) 0 · w2[j,q] + b2[0,q].
-/
import proofs.«108382_j89627377533571_1_alg».proof.Proof.Gen.KernelIdeal.Skeleton
import proofs.«108382_j89627377533571_1_alg».proof.Proof.LibPlainDot
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx
open scoped BigOperators

/-- A block's matrix product into the zero table, at row `p` and column `q`: the sum over the 8 contracted features. -/
theorem blockDot8 (l : FVec Ideal S10000x8 .bf16) (r : FVec Ideal S8x32 .bf16) (p : Fin 10000) (q : Fin 32) :
    matmul dot_S10000x8_S8x32_S10000x32_1_0_0_1_n_n none l r (constant S10000x32 .f32 0x00000000#32) (ix2 p q)
      = ∑ k : Fin 8, l (ix2 p k) * r (ix2 k q) := by
  unfold matmul
  rw [Ideal.matmul_constant_zero_apply]
  exact PlainDot.sum_contr_eq dot_S10000x8_S8x32_S10000x32_1_0_0_1_n_n rfl rfl
    (fun i q => by
      unfold DotDims.lhsIdx
      rw [dif_neg (show ¬(0 : Fin S10000x8.rank) ∈ dot_S10000x8_S8x32_S10000x32_1_0_0_1_n_n.lhsBatch by decide), dif_pos (show (0 : Fin S10000x8.rank) ∈ dot_S10000x8_S8x32_S10000x32_1_0_0_1_n_n.lhsNonContracting by decide)]
      rfl)
    (fun i q => dot_S10000x8_S8x32_S10000x32_1_0_0_1_n_n.lhsIdx_val_of_single rfl i q)
    (fun i q => dot_S10000x8_S8x32_S10000x32_1_0_0_1_n_n.rhsIdx_val_of_single rfl i q)
    (fun i q => by
      unfold DotDims.rhsIdx
      rw [dif_neg (show ¬(1 : Fin S8x32.rank) ∈ dot_S10000x8_S8x32_S10000x32_1_0_0_1_n_n.rhsBatch by decide), dif_pos (show (1 : Fin S8x32.rank) ∈ dot_S10000x8_S8x32_S10000x32_1_0_0_1_n_n.rhsNonContracting by decide)]
      rfl)
    l r (ix2 p q)

/-- A block's matrix product into the zero table, at row `p` and column `q`: the sum over the 32 contracted features. -/
theorem blockDot32 (l : FVec Ideal S10000x32 .bf16) (r : FVec Ideal S32x32 .bf16) (p : Fin 10000) (q : Fin 32) :
    matmul dot_S10000x32_S32x32_S10000x32_1_0_0_1_n_n none l r (constant S10000x32 .f32 0x00000000#32) (ix2 p q)
      = ∑ k : Fin 32, l (ix2 p k) * r (ix2 k q) := by
  unfold matmul
  rw [Ideal.matmul_constant_zero_apply]
  exact PlainDot.sum_contr_eq dot_S10000x32_S32x32_S10000x32_1_0_0_1_n_n rfl rfl
    (fun i q => by
      unfold DotDims.lhsIdx
      rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
      rfl)
    (fun i q => dot_S10000x32_S32x32_S10000x32_1_0_0_1_n_n.lhsIdx_val_of_single rfl i q)
    (fun i q => dot_S10000x32_S32x32_S10000x32_1_0_0_1_n_n.rhsIdx_val_of_single rfl i q)
    (fun i q => by
      unfold DotDims.rhsIdx
      rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
      rfl)
    l r (ix2 p q)

/-- A block's matrix product into the zero table, at row `p` and column `q`: the sum over the 32 contracted features. -/
theorem blockDot32x3 (l : FVec Ideal S10000x32 .bf16) (r : FVec Ideal S32x3 .bf16) (p : Fin 10000) (q : Fin 3) :
    matmul dot_S10000x32_S32x3_S10000x3_1_0_0_1_n_n none l r (constant S10000x3 .f32 0x00000000#32) (ix2 p q)
      = ∑ k : Fin 32, l (ix2 p k) * r (ix2 k q) := by
  unfold matmul
  rw [Ideal.matmul_constant_zero_apply]
  exact PlainDot.sum_contr_eq dot_S10000x32_S32x3_S10000x3_1_0_0_1_n_n rfl rfl
    (fun i q => by
      unfold DotDims.lhsIdx
      rw [dif_neg (show ¬(0 : Fin S10000x32.rank) ∈ dot_S10000x32_S32x3_S10000x3_1_0_0_1_n_n.lhsBatch by decide), dif_pos (show (0 : Fin S10000x32.rank) ∈ dot_S10000x32_S32x3_S10000x3_1_0_0_1_n_n.lhsNonContracting by decide)]
      rfl)
    (fun i q => dot_S10000x32_S32x3_S10000x3_1_0_0_1_n_n.lhsIdx_val_of_single rfl i q)
    (fun i q => dot_S10000x32_S32x3_S10000x3_1_0_0_1_n_n.rhsIdx_val_of_single rfl i q)
    (fun i q => by
      unfold DotDims.rhsIdx
      rw [dif_neg (show ¬(1 : Fin S32x3.rank) ∈ dot_S10000x32_S32x3_S10000x3_1_0_0_1_n_n.rhsBatch by decide), dif_pos (show (1 : Fin S32x3.rank) ∈ dot_S10000x32_S32x3_S10000x3_1_0_0_1_n_n.rhsNonContracting by decide)]
      rfl)
    l r (ix2 p q)

/-- The first layer's body at entry (p, q) of its output block. -/
theorem layer0_apply (a x : Vec Ideal S10000x8 .f32) (wl wr : Vec Ideal S8x32 .f32) (b : Vec Ideal S1x32 .f32) (p : Fin 10000) (q : Fin 32) :
    k0_pay1 (F := Ideal) a x wl wr b (ix2 p q)
      = max ((∑ k : Fin 8, a (ix2 p k) * wl (ix2 k q)) + b (ix2 (0 : Fin 1) q) + ∑ k : Fin 8, x (ix2 p k) * wr (ix2 k q)) (Ideal.ofBits .f32 0x00000000#32) := by
  unfold k0_pay1
  rw [maximumf_apply, addf_apply, addf_apply, blockDot8, blockDot8, broadcastTo_1b_ab_apply]
  simp only [truncf_apply, shapeCast_self, broadcast_apply]
  rfl

/-- The second layer's body at entry (p, q) of its output block. -/
theorem layer1_apply (a x : Vec Ideal S10000x32 .f32) (wl wr : Vec Ideal S32x32 .f32) (b : Vec Ideal S1x32 .f32) (p : Fin 10000) (q : Fin 32) :
    k1_pay1 (F := Ideal) a x wl wr b (ix2 p q)
      = max ((∑ k : Fin 32, a (ix2 p k) * wl (ix2 k q)) + b (ix2 (0 : Fin 1) q) + ∑ k : Fin 32, x (ix2 p k) * wr (ix2 k q)) (Ideal.ofBits .f32 0x00000000#32) := by
  unfold k1_pay1
  rw [maximumf_apply, addf_apply, addf_apply, blockDot32, blockDot32, broadcastTo_1b_ab_apply]
  simp only [truncf_apply, shapeCast_self, broadcast_apply]
  rfl

/-- The third layer's body at entry (p, q) of its output block. -/
theorem layer2_apply (a x : Vec Ideal S10000x32 .f32) (wl wr : Vec Ideal S32x32 .f32) (b : Vec Ideal S1x32 .f32) (p : Fin 10000) (q : Fin 32) :
    k2_pay1 (F := Ideal) a x wl wr b (ix2 p q)
      = max ((∑ k : Fin 32, a (ix2 p k) * wl (ix2 k q)) + b (ix2 (0 : Fin 1) q) + ∑ k : Fin 32, x (ix2 p k) * wr (ix2 k q)) (Ideal.ofBits .f32 0x00000000#32) := by
  unfold k2_pay1
  rw [maximumf_apply, addf_apply, addf_apply, blockDot32, blockDot32, broadcastTo_1b_ab_apply]
  simp only [truncf_apply, shapeCast_self, broadcast_apply]
  rfl

/-- The read-out's body at entry (p, q) of its output block. -/
theorem readout_apply (h : Vec Ideal S10000x32 .f32) (w1 : Vec Ideal S32x32 .f32) (b1 : Vec Ideal S1x32 .f32) (w2 : Vec Ideal S32x3 .f32)
    (b2 : Vec Ideal S1x3 .f32) (p : Fin 10000) (q : Fin 3) :
    k3_pay1 (F := Ideal) h w1 b1 w2 b2 (ix2 p q)
      = (∑ j : Fin 32, max ((∑ k : Fin 32, h (ix2 p k) * w1 (ix2 k j)) + b1 (ix2 (0 : Fin 1) j)) (Ideal.ofBits .f32 0x00000000#32) * w2 (ix2 j q))
        + b2 (ix2 (0 : Fin 1) q) := by
  unfold k3_pay1
  rw [addf_apply, blockDot32x3, broadcastTo_1b_ab_apply]
  simp only [truncf_apply, maximumf_apply, addf_apply, blockDot32, broadcastTo_1b_ab_apply, shapeCast_self, broadcast_apply]
  rfl

end Cert.KernelIdeal.Payload

end
-- ==== Proof.GraphLayer.lean ====
/-
  The dense half of a neighbourhood-averaging graph layer, and the two-layer read-out, as functions of whole arrays.

  A layer takes the table `mean` of neighbour averages and the table `x` of the nodes' own features (both N rows of K
  features), two K × H weight tables and a bias row, and gives, at node `r` and output feature `c`,
      max (Σ_k mean[r,k]·Wl[k,c] + bl[c] + Σ_k x[r,k]·Wr[k,c]) 0.
  The read-out takes the last layer's table `h` (N rows of K features) and gives, at node `r` and action `a`,
      Σ_j max (Σ_k h[r,k]·W1[k,j] + b1[j]) 0 · W2[j,a] + b2[a].
  Both are stated over the extended reals; no law of arithmetic is used on them here, they only name the two results.
-/
import Idealize.ShloMosaic.PureOps.Ideal.Laws
import Idealize.ShloMosaic.Lib.ValueIdx

noncomputable section

namespace Cert.GraphLayer

open Idealize.ShloMosaic Idealize.ShloMosaic.ValueIdx
open scoped BigOperators

/-- The layer's value at node `i 0`, output feature `i 1`. -/
def combine {N K H : Nat} (mean x : (⟨2, ![N, K]⟩ : Shape).Idx → EReal) (Wl : (⟨2, ![K, H]⟩ : Shape).Idx → EReal)
    (bl : (⟨1, ![H]⟩ : Shape).Idx → EReal) (Wr : (⟨2, ![K, H]⟩ : Shape).Idx → EReal) :
    (⟨2, ![N, H]⟩ : Shape).Idx → EReal := fun i =>
  max ((∑ k : Fin K, mean (ix2 (i 0) k) * Wl (ix2 k (i 1))) + bl (ix1 (i 1)) + ∑ k : Fin K, x (ix2 (i 0) k) * Wr (ix2 k (i 1)))
    (Ideal.ofBits .f32 0x00000000#32)

/-- The read-out's value at node `i 0`, action `i 1`. -/
def readout {N K H A : Nat} (h : (⟨2, ![N, K]⟩ : Shape).Idx → EReal) (W1 : (⟨2, ![K, H]⟩ : Shape).Idx → EReal)
    (b1 : (⟨1, ![H]⟩ : Shape).Idx → EReal) (W2 : (⟨2, ![H, A]⟩ : Shape).Idx → EReal) (b2 : (⟨1, ![A]⟩ : Shape).Idx → EReal) :
    (⟨2, ![N, A]⟩ : Shape).Idx → EReal := fun i =>
  (∑ j : Fin H, max ((∑ k : Fin K, h (ix2 (i 0) k) * W1 (ix2 k j)) + b1 (ix1 j)) (Ideal.ofBits .f32 0x00000000#32) * W2 (ix2 j (i 1)))
    + b2 (ix1 (i 1))

end Cert.GraphLayer

end
-- ==== Proof.Layer0.lean ====
/-
  The first layer's kernel launch, read as one function of whole arrays.

  The launch runs its body at ten grid points; point `t` stages rows 10000·t … 10000·t + 9999 of the neighbour-average table
  and of the node-feature table, the two weight tables and the bias row whole, and writes rows 10000·t … of the result back.
  So what point `t` writes is block `t` of the layer's whole-array function of the five arrays as the region finds them,
  the ten blocks tile the result array, and after the launch the result array is that function.
-/
import proofs.«108382_j89627377533571_1_alg».proof.Proof.Gen.KernelIdeal.Frame
import proofs.«108382_j89627377533571_1_alg».proof.Proof.Payload
import proofs.«108382_j89627377533571_1_alg».proof.Proof.GraphLayer

set_option maxRecDepth 16384

noncomputable section

namespace Cert.KernelIdeal.Layer0

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The layer's result as a function of the five arrays the region finds: neighbour averages, node features, the two
    weight tables, and the bias row (kept as a one-row table). -/
def whole (c : Dev nD) : S100000x32.Idx → EReal :=
  GraphLayer.combine (V c main_v22) (V c main_arg0) (V c main_arg2) (fun i => V c main_v23 (ix2 (0 : Fin 1) (i 0))) (V c main_arg4)

/-- Where each window's block sits at grid point `t`: the row-blocked windows at block row `t`, the others at the origin. -/
theorem blockIndex : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A block of rows of the layer: when the body's row-blocked operands are the rows `r p` of two tables and its small
    operands are the weight tables and the bias row, the body's entry (p, q) is the layer's value at (r p, q). -/
theorem body_block (mean x : S100000x8.Idx → EReal) (Wl Wr : S8x32.Idx → EReal) (b : S1x32.Idx → EReal)
    (a0 x0 : Vec Ideal S10000x8 .f32) (wl wr : Vec Ideal S8x32 .f32) (b0 : Vec Ideal S1x32 .f32)
    (r : Fin 10000 → Fin 100000)
    (ha : ∀ (p : Fin 10000) (k : Fin 8), a0 (ix2 p k) = mean (ix2 (r p) k))
    (hx : ∀ (p : Fin 10000) (k : Fin 8), x0 (ix2 p k) = x (ix2 (r p) k))
    (hwl : wl = Wl) (hwr : wr = Wr) (hb : b0 = b) (p : Fin 10000) (q : Fin 32) :
    k0_pay1 (F := Ideal) a0 x0 wl wr b0 (ix2 p q)
      = GraphLayer.combine mean x Wl (fun i => b (ix2 (0 : Fin 1) (i 0))) Wr (ix2 (r p) q) := by
  rw [Payload.layer0_apply]
  subst hwl hwr hb
  unfold GraphLayer.combine
  simp only [ha, hx]

/-- What grid point `t` writes back is block `t` of the layer's whole-array function. -/
theorem flushed (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero origin]
  simp only [View.ld_unit_zero (S := S10000x8) origin, View.ld_unit_zero (S := S8x32) origin, View.ld_unit_zero (S := S1x32) origin]
  funext j
  obtain ⟨p, q, rfl⟩ : ∃ (p : Fin 10000) (q : Fin 32), j = ix2 p q := ⟨j 0, j 1, eq_ix2 j⟩
  obtain ⟨e00, e01, e10, e11, e20, e21, e30, e31, e40, e41, e50, e51⟩ := blockIndex t
  have ht : t.val < 10 := t.isLt
  show k0_pay1 (iblk0 V c 0 t) (iblk0 V c 1 t) (iblk0 V c 2 t) (iblk0 V c 4 t) (iblk0 V c 3 t) (ix2 p q)
    = whole V c (((cfg0.win 5).blk t).view.emb (ix2 p q))
  refine (body_block (V c main_v22) (V c main_arg0) (V c main_arg2) (V c main_arg4) (V c main_v23) _ _ _ _ _
    (fun p => ⟨t.val * 10000 + p.val, by have := p.isLt; omega⟩) ?_ ?_ ?_ ?_ ?_ p q).trans ?_
  · intro p k
    show V c main_v22 (((cfg0.win 0).blk t).view.emb (ix2 p k)) = _
    refine congrArg (V c main_v22) (funext fun a => Fin.ext ?_)
    match a with
    | ⟨0, _⟩ => show win0_0.index t (0 : Fin 2) * 10000 + 1 * p.val = t.val * 10000 + p.val; omega
    | ⟨1, _⟩ => show win0_0.index t (1 : Fin 2) * 8 + 1 * k.val = k.val; omega
  · intro p k
    show V c main_arg0 (((cfg0.win 1).blk t).view.emb (ix2 p k)) = _
    refine congrArg (V c main_arg0) (funext fun a => Fin.ext ?_)
    match a with
    | ⟨0, _⟩ => show win0_1.index t (0 : Fin 2) * 10000 + 1 * p.val = t.val * 10000 + p.val; omega
    | ⟨1, _⟩ => show win0_1.index t (1 : Fin 2) * 8 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 8 + 1 * (y 0).val = (y 0).val; omega
    | ⟨1, _⟩ => show win0_2.index t (1 : Fin 2) * 32 + 1 * (y 1).val = (y 1).val; omega
  · funext y
    show V c main_arg4 (((cfg0.win 4).blk t).view.emb y) = V c main_arg4 y
    refine congrArg (V c main_arg4) (funext fun a => Fin.ext ?_)
    match a with
    | ⟨0, _⟩ => show win0_4.index t (0 : Fin 2) * 8 + 1 * (y 0).val = (y 0).val; omega
    | ⟨1, _⟩ => show win0_4.index t (1 : Fin 2) * 32 + 1 * (y 1).val = (y 1).val; omega
  · funext y
    show V c main_v23 (((cfg0.win 3).blk t).view.emb y) = V c main_v23 y
    refine congrArg (V c main_v23) (funext fun a => Fin.ext ?_)
    match a with
    | ⟨0, _⟩ => show win0_3.index t (0 : Fin 2) * 1 + 1 * (y 0).val = (y 0).val; omega
    | ⟨1, _⟩ => show win0_3.index t (1 : Fin 2) * 32 + 1 * (y 1).val = (y 1).val; omega
  · unfold whole
    refine congrArg _ (funext fun a => Fin.ext ?_)
    match a with
    | ⟨0, _⟩ => show t.val * 10000 + p.val = win0_5.index t (0 : Fin 2) * 10000 + 1 * p.val; omega
    | ⟨1, _⟩ => show q.val = win0_5.index t (1 : Fin 2) * 32 + 1 * q.val; omega

/-- An entry of the result array lies in point `t`'s block iff each coordinate lies in the block's range. -/
theorem mem_block (t : Fin cfg0.N) (i : S100000x32.Idx) :
    i ∈ ((cfg0.win 5).blk t).view.set ↔ ∀ a : Fin 2, win0_5.index t a * S10000x32.size a ≤ (i a).val ∧ (i a).val < win0_5.index t a * S10000x32.size a + S10000x32.size a := by
  show i ∈ ((View.whole main_v24).slice (win0_5.rect t)).set ↔ _
  rw [View.set_slice_whole, Rect.mem_set_unit]
  exact Iff.rfl

/-- Row `r` of the result lies in the block of point `r / 10000`: the ten blocks tile the array. -/
theorem tiled (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have ht : (i 0).val / 10000 < 10 := by omega
  obtain ⟨e00, e01, e10, e11, e20, e21, e30, e31, e40, e41, e50, e51⟩ := blockIndex ⟨(i 0).val / 10000, ht⟩
  refine ⟨⟨(i 0).val / 10000, ht⟩, flush0_5 _, ?_⟩
  rw [mem_block]
  intro a
  match a with
  | ⟨0, _⟩ =>
    show win0_5.index ⟨(i 0).val / 10000, ht⟩ (0 : Fin 2) * 10000 ≤ (i 0).val ∧ (i 0).val < win0_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win0_5.index ⟨(i 0).val / 10000, ht⟩ (1 : Fin 2) * 32 ≤ (i 1).val ∧ (i 1).val < win0_5.index ⟨(i 0).val / 10000, ht⟩ (1 : Fin 2) * 32 + 32
    rw [e51]
    omega

/-- After the launch the result array is the layer's whole-array function of the arrays the region found. -/
theorem result (c : Dev nD) : (dat0 V c).arrAt 5 cfg0.N = whole V c :=
  (dat0 V c).arrAt_eq_of_cover 5 (whole V c) (fun t _ => flushed V c t) tiled

end Cert.KernelIdeal.Layer0

end
-- ==== Proof.Layer1.lean ====
/-
  The second layer's kernel launch, read as one function of whole arrays.

  The launch runs its body at ten grid points; point `t` stages rows 10000·t … 10000·t + 9999 of the neighbour-average table
  and of the node-feature table, the two weight tables and the bias row whole, and writes rows 10000·t … of the result back.
  So what point `t` writes is block `t` of the layer's whole-array function of the five arrays as the region finds them,
  the ten blocks tile the result array, and after the launch the result array is that function.
-/
import proofs.«108382_j89627377533571_1_alg».proof.Proof.Gen.KernelIdeal.Frame
import proofs.«108382_j89627377533571_1_alg».proof.Proof.Payload
import proofs.«108382_j89627377533571_1_alg».proof.Proof.GraphLayer

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The layer's result as a function of the five arrays the region finds: neighbour averages, node features, the two
    weight tables, and the bias row (kept as a one-row table). -/
def whole (c : Dev nD) : S100000x32.Idx → EReal :=
  GraphLayer.combine (V c main_v43) (V c main_v24) (V c main_arg5) (fun i => V c main_v44 (ix2 (0 : Fin 1) (i 0))) (V c main_arg7)

/-- Where each window's block sits at grid point `t`: the row-blocked windows at block row `t`, the others at the origin. -/
theorem blockIndex : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A block of rows of the layer: when the body's row-blocked operands are the rows `r p` of two tables and its small
    operands are the weight tables and the bias row, the body's entry (p, q) is the layer's value at (r p, q). -/
theorem body_block (mean x : S100000x32.Idx → EReal) (Wl Wr : S32x32.Idx → EReal) (b : S1x32.Idx → EReal)
    (a0 x0 : Vec Ideal S10000x32 .f32) (wl wr : Vec Ideal S32x32 .f32) (b0 : Vec Ideal S1x32 .f32)
    (r : Fin 10000 → Fin 100000)
    (ha : ∀ (p : Fin 10000) (k : Fin 32), a0 (ix2 p k) = mean (ix2 (r p) k))
    (hx : ∀ (p : Fin 10000) (k : Fin 32), x0 (ix2 p k) = x (ix2 (r p) k))
    (hwl : wl = Wl) (hwr : wr = Wr) (hb : b0 = b) (p : Fin 10000) (q : Fin 32) :
    k1_pay1 (F := Ideal) a0 x0 wl wr b0 (ix2 p q)
      = GraphLayer.combine mean x Wl (fun i => b (ix2 (0 : Fin 1) (i 0))) Wr (ix2 (r p) q) := by
  rw [Payload.layer1_apply]
  subst hwl hwr hb
  unfold GraphLayer.combine
  simp only [ha, hx]

/-- What grid point `t` writes back is block `t` of the layer's whole-array function. -/
theorem flushed (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero origin]
  simp only [View.ld_unit_zero (S := S10000x32) origin, View.ld_unit_zero (S := S32x32) origin, View.ld_unit_zero (S := S1x32) origin]
  funext j
  obtain ⟨p, q, rfl⟩ : ∃ (p : Fin 10000) (q : Fin 32), j = ix2 p q := ⟨j 0, j 1, eq_ix2 j⟩
  obtain ⟨e00, e01, e10, e11, e20, e21, e30, e31, e40, e41, e50, e51⟩ := blockIndex t
  have ht : t.val < 10 := t.isLt
  show k1_pay1 (iblk1 V c 0 t) (iblk1 V c 1 t) (iblk1 V c 2 t) (iblk1 V c 4 t) (iblk1 V c 3 t) (ix2 p q)
    = whole V c (((cfg1.win 5).blk t).view.emb (ix2 p q))
  refine (body_block (V c main_v43) (V c main_v24) (V c main_arg5) (V c main_arg7) (V c main_v44) _ _ _ _ _
    (fun p => ⟨t.val * 10000 + p.val, by have := p.isLt; omega⟩) ?_ ?_ ?_ ?_ ?_ p q).trans ?_
  · intro p k
    show V c main_v43 (((cfg1.win 0).blk t).view.emb (ix2 p k)) = _
    refine congrArg (V c main_v43) (funext fun a => Fin.ext ?_)
    match a with
    | ⟨0, _⟩ => show win1_0.index t (0 : Fin 2) * 10000 + 1 * p.val = t.val * 10000 + p.val; omega
    | ⟨1, _⟩ => show win1_0.index t (1 : Fin 2) * 32 + 1 * k.val = k.val; omega
  · intro p k
    show V c main_v24 (((cfg1.win 1).blk t).view.emb (ix2 p k)) = _
    refine congrArg (V c main_v24) (funext fun a => Fin.ext ?_)
    match a with
    | ⟨0, _⟩ => show win1_1.index t (0 : Fin 2) * 10000 + 1 * p.val = t.val * 10000 + p.val; omega
    | ⟨1, _⟩ => show win1_1.index t (1 : Fin 2) * 32 + 1 * k.val = k.val; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 32 + 1 * (y 0).val = (y 0).val; omega
    | ⟨1, _⟩ => show win1_2.index t (1 : Fin 2) * 32 + 1 * (y 1).val = (y 1).val; omega
  · funext y
    show V c main_arg7 (((cfg1.win 4).blk t).view.emb y) = V c main_arg7 y
    refine congrArg (V c main_arg7) (funext fun a => Fin.ext ?_)
    match a with
    | ⟨0, _⟩ => show win1_4.index t (0 : Fin 2) * 32 + 1 * (y 0).val = (y 0).val; omega
    | ⟨1, _⟩ => show win1_4.index t (1 : Fin 2) * 32 + 1 * (y 1).val = (y 1).val; omega
  · funext y
    show V c main_v44 (((cfg1.win 3).blk t).view.emb y) = V c main_v44 y
    refine congrArg (V c main_v44) (funext fun a => Fin.ext ?_)
    match a with
    | ⟨0, _⟩ => show win1_3.index t (0 : Fin 2) * 1 + 1 * (y 0).val = (y 0).val; omega
    | ⟨1, _⟩ => show win1_3.index t (1 : Fin 2) * 32 + 1 * (y 1).val = (y 1).val; omega
  · unfold whole
    refine congrArg _ (funext fun a => Fin.ext ?_)
    match a with
    | ⟨0, _⟩ => show t.val * 10000 + p.val = win1_5.index t (0 : Fin 2) * 10000 + 1 * p.val; omega
    | ⟨1, _⟩ => show q.val = win1_5.index t (1 : Fin 2) * 32 + 1 * q.val; omega

/-- An entry of the result array lies in point `t`'s block iff each coordinate lies in the block's range. -/
theorem mem_block (t : Fin cfg1.N) (i : S100000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v45).slice (win1_5.rect t)).set ↔ _
  rw [View.set_slice_whole, Rect.mem_set_unit]
  exact Iff.rfl

/-- Row `r` of the result lies in the block of point `r / 10000`: the ten blocks tile the array. -/
theorem tiled (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have ht : (i 0).val / 10000 < 10 := by omega
  obtain ⟨e00, e01, e10, e11, e20, e21, e30, e31, e40, e41, e50, e51⟩ := blockIndex ⟨(i 0).val / 10000, ht⟩
  refine ⟨⟨(i 0).val / 10000, ht⟩, flush1_5 _, ?_⟩
  rw [mem_block]
  intro a
  match a with
  | ⟨0, _⟩ =>
    show win1_5.index ⟨(i 0).val / 10000, ht⟩ (0 : Fin 2) * 10000 ≤ (i 0).val ∧ (i 0).val < win1_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win1_5.index ⟨(i 0).val / 10000, ht⟩ (1 : Fin 2) * 32 ≤ (i 1).val ∧ (i 1).val < win1_5.index ⟨(i 0).val / 10000, ht⟩ (1 : Fin 2) * 32 + 32
    rw [e51]
    omega

/-- After the launch the result array is the layer's whole-array function of the arrays the region found. -/
theorem result (c : Dev nD) : (dat1 V c).arrAt 5 cfg1.N = whole V c :=
  (dat1 V c).arrAt_eq_of_cover 5 (whole V c) (fun t _ => flushed V c t) tiled

end Cert.KernelIdeal.Layer1

end
-- ==== Proof.Layer2.lean ====
/-
  The third layer's kernel launch, read as one function of whole arrays.

  The launch runs its body at ten grid points; point `t` stages rows 10000·t … 10000·t + 9999 of the neighbour-average table
  and of the node-feature table, the two weight tables and the bias row whole, and writes rows 10000·t … of the result back.
  So what point `t` writes is block `t` of the layer's whole-array function of the five arrays as the region finds them,
  the ten blocks tile the result array, and after the launch the result array is that function.
-/
import proofs.«108382_j89627377533571_1_alg».proof.Proof.Gen.KernelIdeal.Frame
import proofs.«108382_j89627377533571_1_alg».proof.Proof.Payload
import proofs.«108382_j89627377533571_1_alg».proof.Proof.GraphLayer

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The layer's result as a function of the five arrays the region finds: neighbour averages, node features, the two
    weight tables, and the bias row (kept as a one-row table). -/
def whole (c : Dev nD) : S100000x32.Idx → EReal :=
  GraphLayer.combine (V c main_v64) (V c main_v45) (V c main_arg8) (fun i => V c main_v65 (ix2 (0 : Fin 1) (i 0))) (V c main_arg10)

/-- Where each window's block sits at grid point `t`: the row-blocked windows at block row `t`, the others at the origin. -/
theorem blockIndex : ∀ t : Fin cfg2.N, win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A block of rows of the layer: when the body's row-blocked operands are the rows `r p` of two tables and its small
    operands are the weight tables and the bias row, the body's entry (p, q) is the layer's value at (r p, q). -/
theorem body_block (mean x : S100000x32.Idx → EReal) (Wl Wr : S32x32.Idx → EReal) (b : S1x32.Idx → EReal)
    (a0 x0 : Vec Ideal S10000x32 .f32) (wl wr : Vec Ideal S32x32 .f32) (b0 : Vec Ideal S1x32 .f32)
    (r : Fin 10000 → Fin 100000)
    (ha : ∀ (p : Fin 10000) (k : Fin 32), a0 (ix2 p k) = mean (ix2 (r p) k))
    (hx : ∀ (p : Fin 10000) (k : Fin 32), x0 (ix2 p k) = x (ix2 (r p) k))
    (hwl : wl = Wl) (hwr : wr = Wr) (hb : b0 = b) (p : Fin 10000) (q : Fin 32) :
    k2_pay1 (F := Ideal) a0 x0 wl wr b0 (ix2 p q)
      = GraphLayer.combine mean x Wl (fun i => b (ix2 (0 : Fin 1) (i 0))) Wr (ix2 (r p) q) := by
  rw [Payload.layer2_apply]
  subst hwl hwr hb
  unfold GraphLayer.combine
  simp only [ha, hx]

/-- What grid point `t` writes back is block `t` of the layer's whole-array function. -/
theorem flushed (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero origin]
  simp only [View.ld_unit_zero (S := S10000x32) origin, View.ld_unit_zero (S := S32x32) origin, View.ld_unit_zero (S := S1x32) origin]
  funext j
  obtain ⟨p, q, rfl⟩ : ∃ (p : Fin 10000) (q : Fin 32), j = ix2 p q := ⟨j 0, j 1, eq_ix2 j⟩
  obtain ⟨e00, e01, e10, e11, e20, e21, e30, e31, e40, e41, e50, e51⟩ := blockIndex t
  have ht : t.val < 10 := t.isLt
  show k2_pay1 (iblk2 V c 0 t) (iblk2 V c 1 t) (iblk2 V c 2 t) (iblk2 V c 4 t) (iblk2 V c 3 t) (ix2 p q)
    = whole V c (((cfg2.win 5).blk t).view.emb (ix2 p q))
  refine (body_block (V c main_v64) (V c main_v45) (V c main_arg8) (V c main_arg10) (V c main_v65) _ _ _ _ _
    (fun p => ⟨t.val * 10000 + p.val, by have := p.isLt; omega⟩) ?_ ?_ ?_ ?_ ?_ p q).trans ?_
  · intro p k
    show V c main_v64 (((cfg2.win 0).blk t).view.emb (ix2 p k)) = _
    refine congrArg (V c main_v64) (funext fun a => Fin.ext ?_)
    match a with
    | ⟨0, _⟩ => show win2_0.index t (0 : Fin 2) * 10000 + 1 * p.val = t.val * 10000 + p.val; omega
    | ⟨1, _⟩ => show win2_0.index t (1 : Fin 2) * 32 + 1 * k.val = k.val; omega
  · intro p k
    show V c main_v45 (((cfg2.win 1).blk t).view.emb (ix2 p k)) = _
    refine congrArg (V c main_v45) (funext fun a => Fin.ext ?_)
    match a with
    | ⟨0, _⟩ => show win2_1.index t (0 : Fin 2) * 10000 + 1 * p.val = t.val * 10000 + p.val; omega
    | ⟨1, _⟩ => show win2_1.index t (1 : Fin 2) * 32 + 1 * k.val = k.val; omega
  · funext y
    show V c main_arg8 (((cfg2.win 2).blk t).view.emb y) = V c main_arg8 y
    refine congrArg (V c main_arg8) (funext fun a => Fin.ext ?_)
    match a with
    | ⟨0, _⟩ => show win2_2.index t (0 : Fin 2) * 32 + 1 * (y 0).val = (y 0).val; omega
    | ⟨1, _⟩ => show win2_2.index t (1 : Fin 2) * 32 + 1 * (y 1).val = (y 1).val; omega
  · funext y
    show V c main_arg10 (((cfg2.win 4).blk t).view.emb y) = V c main_arg10 y
    refine congrArg (V c main_arg10) (funext fun a => Fin.ext ?_)
    match a with
    | ⟨0, _⟩ => show win2_4.index t (0 : Fin 2) * 32 + 1 * (y 0).val = (y 0).val; omega
    | ⟨1, _⟩ => show win2_4.index t (1 : Fin 2) * 32 + 1 * (y 1).val = (y 1).val; omega
  · funext y
    show V c main_v65 (((cfg2.win 3).blk t).view.emb y) = V c main_v65 y
    refine congrArg (V c main_v65) (funext fun a => Fin.ext ?_)
    match a with
    | ⟨0, _⟩ => show win2_3.index t (0 : Fin 2) * 1 + 1 * (y 0).val = (y 0).val; omega
    | ⟨1, _⟩ => show win2_3.index t (1 : Fin 2) * 32 + 1 * (y 1).val = (y 1).val; omega
  · unfold whole
    refine congrArg _ (funext fun a => Fin.ext ?_)
    match a with
    | ⟨0, _⟩ => show t.val * 10000 + p.val = win2_5.index t (0 : Fin 2) * 10000 + 1 * p.val; omega
    | ⟨1, _⟩ => show q.val = win2_5.index t (1 : Fin 2) * 32 + 1 * q.val; omega

/-- An entry of the result array lies in point `t`'s block iff each coordinate lies in the block's range. -/
theorem mem_block (t : Fin cfg2.N) (i : S100000x32.Idx) :
    i ∈ ((cfg2.win 5).blk t).view.set ↔ ∀ a : Fin 2, win2_5.index t a * S10000x32.size a ≤ (i a).val ∧ (i a).val < win2_5.index t a * S10000x32.size a + S10000x32.size a := by
  show i ∈ ((View.whole main_v66).slice (win2_5.rect t)).set ↔ _
  rw [View.set_slice_whole, Rect.mem_set_unit]
  exact Iff.rfl

/-- Row `r` of the result lies in the block of point `r / 10000`: the ten blocks tile the array. -/
theorem tiled (i : S100000x32.Idx) :
    ∃ t : Fin cfg2.N, (cfg2.win 5).flush t = true ∧ i ∈ ((cfg2.win 5).blk t).view.set := by
  have hi0 : (i 0).val < 100000 := (i 0).isLt
  have hi1 : (i 1).val < 32 := (i 1).isLt
  have ht : (i 0).val / 10000 < 10 := by omega
  obtain ⟨e00, e01, e10, e11, e20, e21, e30, e31, e40, e41, e50, e51⟩ := blockIndex ⟨(i 0).val / 10000, ht⟩
  refine ⟨⟨(i 0).val / 10000, ht⟩, flush2_5 _, ?_⟩
  rw [mem_block]
  intro a
  match a with
  | ⟨0, _⟩ =>
    show win2_5.index ⟨(i 0).val / 10000, ht⟩ (0 : Fin 2) * 10000 ≤ (i 0).val ∧ (i 0).val < win2_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win2_5.index ⟨(i 0).val / 10000, ht⟩ (1 : Fin 2) * 32 ≤ (i 1).val ∧ (i 1).val < win2_5.index ⟨(i 0).val / 10000, ht⟩ (1 : Fin 2) * 32 + 32
    rw [e51]
    omega

/-- After the launch the result array is the layer's whole-array function of the arrays the region found. -/
theorem result (c : Dev nD) : (dat2 V c).arrAt 5 cfg2.N = whole V c :=
  (dat2 V c).arrAt_eq_of_cover 5 (whole V c) (fun t _ => flushed V c t) tiled

end Cert.KernelIdeal.Layer2

end
-- ==== Proof.Readout.lean ====
/-
  The read-out's kernel launch, read as one function of whole arrays.

  The launch runs its body at ten grid points; point `t` stages rows 10000·t … 10000·t + 9999 of the last layer's table,
  the two weight tables and the two bias rows whole, and writes rows 10000·t … of the result back. So what point `t`
  writes is block `t` of the read-out's whole-array function of the five arrays as the region finds them, the ten blocks
  tile the result array, and after the launch the result array is that function.
-/
import proofs.«108382_j89627377533571_1_alg».proof.Proof.Gen.KernelIdeal.Frame
import proofs.«108382_j89627377533571_1_alg».proof.Proof.Payload
import proofs.«108382_j89627377533571_1_alg».proof.Proof.GraphLayer

set_option maxRecDepth 16384

noncomputable section

namespace Cert.KernelIdeal.Readout

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The read-out's result as a function of the five arrays the region finds: the last layer's table, the two weight
    tables, and the two bias rows (kept as one-row tables). -/
def whole (c : Dev nD) : S100000x3.Idx → EReal :=
  GraphLayer.readout (V c main_v66) (V c main_arg11) (fun i => V c main_v67 (ix2 (0 : Fin 1) (i 0))) (V c main_arg13)
    (fun i => V c main_v68 (ix2 (0 : Fin 1) (i 0)))

/-- Where each window's block sits at grid point `t`: the row-blocked windows at block row `t`, the others at the origin. -/
theorem blockIndex : ∀ t : Fin cfg3.N, win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A block of rows of the read-out: when the body's row-blocked operand is the rows `r p` of a table and its small
    operands are the weight tables and the bias rows, the body's entry (p, q) is the read-out's value at (r p, q). -/
theorem body_block (h : S100000x32.Idx → EReal) (W1 : S32x32.Idx → EReal) (b1 : S1x32.Idx → EReal) (W2 : S32x3.Idx → EReal)
    (b2 : S1x3.Idx → EReal)
    (h0 : Vec Ideal S10000x32 .f32) (w1 : Vec Ideal S32x32 .f32) (c1 : Vec Ideal S1x32 .f32) (w2 : Vec Ideal S32x3 .f32)
    (c2 : Vec Ideal S1x3 .f32) (r : Fin 10000 → Fin 100000)
    (hh : ∀ (p : Fin 10000) (k : Fin 32), h0 (ix2 p k) = h (ix2 (r p) k))
    (hw1 : w1 = W1) (hc1 : c1 = b1) (hw2 : w2 = W2) (hc2 : c2 = b2) (p : Fin 10000) (q : Fin 3) :
    k3_pay1 (F := Ideal) h0 w1 c1 w2 c2 (ix2 p q)
      = GraphLayer.readout h W1 (fun i => b1 (ix2 (0 : Fin 1) (i 0))) W2 (fun i => b2 (ix2 (0 : Fin 1) (i 0))) (ix2 (r p) q) := by
  rw [Payload.readout_apply]
  subst hw1 hc1 hw2 hc2
  unfold GraphLayer.readout
  simp only [hh]

/-- What grid point `t` writes back is block `t` of the read-out's whole-array function. -/
theorem flushed (c : Dev nD) (t : Fin cfg3.N) :
    (dat3 V c).flushed 5 t = ((cfg3.win 5).blk t).view.read (Elt Ideal) (whole V c) := by
  show (cfg3.win 5).cut (grid3.coords t) ((dat3 V c).after 5 t) = _
  rw [after3_5]
  unfold out3_5
  rw [View.canon_unit_zero origin]
  simp only [View.ld_unit_zero (S := S10000x32) origin, View.ld_unit_zero (S := S32x32) origin, View.ld_unit_zero (S := S1x32) origin,
    View.ld_unit_zero (S := S32x3) origin, View.ld_unit_zero (S := S1x3) origin]
  funext j
  obtain ⟨p, q, rfl⟩ : ∃ (p : Fin 10000) (q : Fin 3), j = ix2 p q := ⟨j 0, j 1, eq_ix2 j⟩
  obtain ⟨e00, e01, e10, e11, e20, e21, e30, e31, e40, e41, e50, e51⟩ := blockIndex t
  have ht : t.val < 10 := t.isLt
  show k3_pay1 (iblk3 V c 0 t) (iblk3 V c 1 t) (iblk3 V c 2 t) (iblk3 V c 3 t) (iblk3 V c 4 t) (ix2 p q)
    = whole V c (((cfg3.win 5).blk t).view.emb (ix2 p q))
  refine (body_block (V c main_v66) (V c main_arg11) (V c main_v67) (V c main_arg13) (V c main_v68) _ _ _ _ _
    (fun p => ⟨t.val * 10000 + p.val, by have := p.isLt; omega⟩) ?_ ?_ ?_ ?_ ?_ p q).trans ?_
  · intro p k
    show V c main_v66 (((cfg3.win 0).blk t).view.emb (ix2 p k)) = _
    refine congrArg (V c main_v66) (funext fun a => Fin.ext ?_)
    match a with
    | ⟨0, _⟩ => show win3_0.index t (0 : Fin 2) * 10000 + 1 * p.val = t.val * 10000 + p.val; omega
    | ⟨1, _⟩ => show win3_0.index t (1 : Fin 2) * 32 + 1 * k.val = k.val; omega
  · funext y
    show V c main_arg11 (((cfg3.win 1).blk t).view.emb y) = V c main_arg11 y
    refine congrArg (V c main_arg11) (funext fun a => Fin.ext ?_)
    match a with
    | ⟨0, _⟩ => show win3_1.index t (0 : Fin 2) * 32 + 1 * (y 0).val = (y 0).val; omega
    | ⟨1, _⟩ => show win3_1.index t (1 : Fin 2) * 32 + 1 * (y 1).val = (y 1).val; omega
  · funext y
    show V c main_v67 (((cfg3.win 2).blk t).view.emb y) = V c main_v67 y
    refine congrArg (V c main_v67) (funext fun a => Fin.ext ?_)
    match a with
    | ⟨0, _⟩ => show win3_2.index t (0 : Fin 2) * 1 + 1 * (y 0).val = (y 0).val; omega
    | ⟨1, _⟩ => show win3_2.index t (1 : Fin 2) * 32 + 1 * (y 1).val = (y 1).val; omega
  · funext y
    show V c main_arg13 (((cfg3.win 3).blk t).view.emb y) = V c main_arg13 y
    refine congrArg (V c main_arg13) (funext fun a => Fin.ext ?_)
    match a with
    | ⟨0, _⟩ => show win3_3.index t (0 : Fin 2) * 32 + 1 * (y 0).val = (y 0).val; omega
    | ⟨1, _⟩ => show win3_3.index t (1 : Fin 2) * 3 + 1 * (y 1).val = (y 1).val; omega
  · funext y
    show V c main_v68 (((cfg3.win 4).blk t).view.emb y) = V c main_v68 y
    refine congrArg (V c main_v68) (funext fun a => Fin.ext ?_)
    match a with
    | ⟨0, _⟩ => show win3_4.index t (0 : Fin 2) * 1 + 1 * (y 0).val = (y 0).val; omega
    | ⟨1, _⟩ => show win3_4.index t (1 : Fin 2) * 3 + 1 * (y 1).val = (y 1).val; omega
  · unfold whole
    refine congrArg _ (funext fun a => Fin.ext ?_)
    match a with
    | ⟨0, _⟩ => show t.val * 10000 + p.val = win3_5.index t (0 : Fin 2) * 10000 + 1 * p.val; omega
    | ⟨1, _⟩ => show q.val = win3_5.index t (1 : Fin 2) * 3 + 1 * q.val; omega

/-- An entry of the result array lies in point `t`'s block iff each coordinate lies in the block's range. -/
theorem mem_block (t : Fin cfg3.N) (i : S100000x3.Idx) :
    i ∈ ((cfg3.win 5).blk t).view.set ↔ ∀ a : Fin 2, win3_5.index t a * S10000x3.size a ≤ (i a).val ∧ (i a).val < win3_5.index t a * S10000x3.size a + S10000x3.size a := by
  show i ∈ ((View.whole main_v69).slice (win3_5.rect t)).set ↔ _
  rw [View.set_slice_whole, Rect.mem_set_unit]
  exact Iff.rfl

/-- Row `r` of the result lies in the block of point `r / 10000`: the ten blocks tile the array. -/
theorem tiled (i : S100000x3.Idx) :
    ∃ t : Fin cfg3.N, (cfg3.win 5).flush t = true ∧ i ∈ ((cfg3.win 5).blk t).view.set := by
  have hi0 : (i 0).val < 100000 := (i 0).isLt
  have hi1 : (i 1).val < 3 := (i 1).isLt
  have ht : (i 0).val / 10000 < 10 := by omega
  obtain ⟨e00, e01, e10, e11, e20, e21, e30, e31, e40, e41, e50, e51⟩ := blockIndex ⟨(i 0).val / 10000, ht⟩
  refine ⟨⟨(i 0).val / 10000, ht⟩, flush3_5 _, ?_⟩
  rw [mem_block]
  intro a
  match a with
  | ⟨0, _⟩ =>
    show win3_5.index ⟨(i 0).val / 10000, ht⟩ (0 : Fin 2) * 10000 ≤ (i 0).val ∧ (i 0).val < win3_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win3_5.index ⟨(i 0).val / 10000, ht⟩ (1 : Fin 2) * 3 ≤ (i 1).val ∧ (i 1).val < win3_5.index ⟨(i 0).val / 10000, ht⟩ (1 : Fin 2) * 3 + 3
    rw [e51]
    omega

/-- After the launch the result array is the read-out's whole-array function of the arrays the region found. -/
theorem result (c : Dev nD) : (dat3 V c).arrAt 5 cfg3.N = whole V c :=
  (dat3 V c).arrAt_eq_of_cover 5 (whole V c) (fun t _ => flushed V c t) tiled

end Cert.KernelIdeal.Readout

end
-- ==== Proof.RefTerms.lean ====
/-
  The reference program's result, named piece by piece.

  The reference computes, three times over, a neighbour average (gather the source rows of every edge, add them into
  their destination rows, divide by the destination's in-degree clipped below at one) followed by the dense half of the
  layer (two matrix products, a bias row and a clip below at zero), and ends with the two-layer read-out. Each piece is
  named here as a function of whole arrays with exactly the operations the reference applies, so that the reference's
  composed term is these functions applied to its arguments, and each dense piece is read at an entry as the plain formula
  of `GraphLayer`.
-/
import proofs.«108382_j89627377533571_1_alg».proof.Proof.Gen.ReferenceIdeal.Run
import proofs.«108382_j89627377533571_1_alg».proof.Proof.LibPlainDot
import proofs.«108382_j89627377533571_1_alg».proof.Proof.GraphLayer
import Idealize.ShloMosaic.Lib.Pipeline.Value
import Idealize.ShloMosaic.Lib.ValueLayout

set_option maxRecDepth 16384

noncomputable section

namespace Cert.ReferenceIdeal.Terms

open Cert.ReferenceIdeal Cert.ReferenceIdeal.Gen Idealize.ShloMosaic Idealize.ShloMosaic.TcCoe Idealize.ShloMosaic.ValueIdx Idealize.SL.Sem
open scoped BigOperators

/-- The source node of every edge as given: the edge table's first row. -/
def srcRow (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The destination node of every edge: the edge table's second row. -/
def dstRow (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The destinations as a one-column table. -/
def dstOf (d : (⟨S1600000, .i32⟩ : BufTy).Contents (Elt Ideal)) : (⟨S1600000x1, .i32⟩ : BufTy).Contents (Elt Ideal) :=
  broadcastInDim S1600000x1 ![0] bcast_S1600000_S1600000x1_0 d

/-- The sources, a negative number counted from the end, as a one-column table. -/
def srcOf (s : (⟨S1600000, .i32⟩ : BufTy).Contents (Elt Ideal)) : (⟨S1600000x1, .i32⟩ : BufTy).Contents (Elt Ideal) :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)

/-- Every node's in-degree, clipped below at one. -/
def degreeOf (d : (⟨S1600000, .i32⟩ : BufTy).Contents (Elt Ideal)) : FVec Ideal S100000 .f32 :=
  maximumf (Host.scatterAdd scatter_S100000_S1600000x1_S1600000_n_0_0_1 (broadcastInDim S100000 ![] bcast_S_S100000 (constant S_ .f32 0x00000000#32)) (dstOf d) (broadcastInDim S1600000 ![] bcast_S_S1600000 (constant S_ .f32 0x3F800000#32))) (broadcastInDim S100000 ![] bcast_S_S100000 (constant S_ .f32 0x3F800000#32))

/-- The neighbour average of a table of 8 features per node, from the sources and destinations of the edges. -/
def meanOf8 (x : FVec Ideal S100000x8 .f32) (s d : (⟨S1600000, .i32⟩ : BufTy).Contents (Elt Ideal)) : FVec Ideal S100000x8 .f32 :=
  Host.divf (Host.scatterAdd scatter_S100000x8_S1600000x1_S1600000x8_1_0_0_1 (broadcastInDim S100000x8 ![] bcast_S_S100000x8 (constant S_ .f32 0x00000000#32)) (dstOf d) (Host.gather gather_S100000x8_S1600000x1_S1600000x8_1_0_n_n_0_1_18 x (srcOf s))) (broadcastInDim S100000x8 ![0, 1] bcast_S100000x1_S100000x8_0_1 (broadcastInDim S100000x1 ![0] bcast_S100000_S100000x1_0 (degreeOf d)))

/-- The neighbour average of a table of 32 features per node, from the sources and destinations of the edges. -/
def meanOf32 (h : FVec Ideal S100000x32 .f32) (s d : (⟨S1600000, .i32⟩ : BufTy).Contents (Elt Ideal)) : FVec Ideal S100000x32 .f32 :=
  Host.divf (Host.scatterAdd scatter_S100000x32_S1600000x1_S1600000x32_1_0_0_1 (broadcastInDim S100000x32 ![] bcast_S_S100000x32 (constant S_ .f32 0x00000000#32)) (dstOf d) (Host.gather gather_S100000x32_S1600000x1_S1600000x32_1_0_n_n_0_1_132 h (srcOf s))) (broadcastInDim S100000x32 ![0, 1] bcast_S100000x1_S100000x32_0_1 (broadcastInDim S100000x1 ![0] bcast_S100000_S100000x1_0 (degreeOf d)))

/-- The neighbour average of a table of 8 features per node, from the edge table. -/
def mean8 (x : FVec Ideal S100000x8 .f32) (e : (⟨S2x1600000, .i32⟩ : BufTy).Contents (Elt Ideal)) : FVec Ideal S100000x8 .f32 :=
  meanOf8 x (srcRow e) (dstRow e)

/-- The neighbour average of a table of 32 features per node, from the edge table. -/
def mean32 (h : FVec Ideal S100000x32 .f32) (e : (⟨S2x1600000, .i32⟩ : BufTy).Contents (Elt Ideal)) : FVec Ideal S100000x32 .f32 :=
  meanOf32 h (srcRow e) (dstRow e)

/-- The dense half of the first layer, as the reference applies it. -/
def layer8 (mean x : FVec Ideal S100000x8 .f32) (Wl : FVec Ideal S8x32 .f32) (bl : FVec Ideal S32 .f32) (Wr : FVec Ideal S8x32 .f32) : FVec Ideal S100000x32 .f32 :=
  maximumf (addf (addf (Host.dotGeneral dot_S100000x8_S8x32_S100000x32_1_0_0_1_n_n none mean Wl) (broadcastInDim S100000x32 ![0, 1] bcast_S1x32_S100000x32_0_1 (broadcastInDim S1x32 ![1] bcast_S32_S1x32_1 bl))) (Host.dotGeneral dot_S100000x8_S8x32_S100000x32_1_0_0_1_n_n none x Wr)) (broadcastInDim S100000x32 ![] bcast_S_S100000x32 (constant S_ .f32 0x00000000#32))

/-- The dense half of the second and third layers, as the reference applies it. -/
def layer32 (mean x : FVec Ideal S100000x32 .f32) (Wl : FVec Ideal S32x32 .f32) (bl : FVec Ideal S32 .f32) (Wr : FVec Ideal S32x32 .f32) : FVec Ideal S100000x32 .f32 :=
  maximumf (addf (addf (Host.dotGeneral dot_S100000x32_S32x32_S100000x32_1_0_0_1_n_n none mean Wl) (broadcastInDim S100000x32 ![0, 1] bcast_S1x32_S100000x32_0_1 (broadcastInDim S1x32 ![1] bcast_S32_S1x32_1 bl))) (Host.dotGeneral dot_S100000x32_S32x32_S100000x32_1_0_0_1_n_n none x Wr)) (broadcastInDim S100000x32 ![] bcast_S_S100000x32 (constant S_ .f32 0x00000000#32))

/-- The read-out's hidden table: one dense layer and a clip below at zero. -/
def hidden (h : FVec Ideal S100000x32 .f32) (W1 : FVec Ideal S32x32 .f32) (b1 : FVec Ideal S32 .f32) : FVec Ideal S100000x32 .f32 :=
  maximumf (addf (Host.dotGeneral dot_S100000x32_S32x32_S100000x32_1_0_0_1_n_n none h W1) (broadcastInDim S100000x32 ![0, 1] bcast_S1x32_S100000x32_0_1 (broadcastInDim S1x32 ![1] bcast_S32_S1x32_1 b1))) (broadcastInDim S100000x32 ![] bcast_S_S100000x32 (constant S_ .f32 0x00000000#32))

/-- The read-out, as the reference applies it. -/
def readout (h : FVec Ideal S100000x32 .f32) (W1 : FVec Ideal S32x32 .f32) (b1 : FVec Ideal S32 .f32) (W2 : FVec Ideal S32x3 .f32) (b2 : FVec Ideal S3 .f32) : FVec Ideal S100000x3 .f32 :=
  addf (Host.dotGeneral dot_S100000x32_S32x3_S100000x3_1_0_0_1_n_n none (hidden h W1 b1) W2) (broadcastInDim S100000x3 ![0, 1] bcast_S1x3_S100000x3_0_1 (broadcastInDim S1x3 ![1] bcast_S3_S1x3_1 b2))

/-- The whole network: three layers, each fed the neighbour average of the previous table, and the read-out. -/
def network (x : FVec Ideal S100000x8 .f32) (e : (⟨S2x1600000, .i32⟩ : BufTy).Contents (Elt Ideal)) (Wl1 : FVec Ideal S8x32 .f32) (bl1 : FVec Ideal S32 .f32) (Wr1 : FVec Ideal S8x32 .f32)
    (Wl2 : FVec Ideal S32x32 .f32) (bl2 : FVec Ideal S32 .f32) (Wr2 : FVec Ideal S32x32 .f32) (Wl3 : FVec Ideal S32x32 .f32) (bl3 : FVec Ideal S32 .f32) (Wr3 : FVec Ideal S32x32 .f32)
    (Wh1 : FVec Ideal S32x32 .f32) (bh1 : FVec Ideal S32 .f32) (Wh2 : FVec Ideal S32x3 .f32) (bh2 : FVec Ideal S3 .f32) : FVec Ideal S100000x3 .f32 :=
  readout (layer32 (mean32 (layer32 (mean32 (layer8 (mean8 x e) x Wl1 bl1 Wr1) e) (layer8 (mean8 x e) x Wl1 bl1 Wr1) Wl2 bl2 Wr2) e)
    (layer32 (mean32 (layer8 (mean8 x e) x Wl1 bl1 Wr1) e) (layer8 (mean8 x e) x Wl1 bl1 Wr1) Wl2 bl2 Wr2) Wl3 bl3 Wr3) Wh1 bh1 Wh2 bh2

/-- The reference's composed term is the network of its arguments. -/
theorem res_eq (m : (ℓ : Loc nD τ sig) → Buf (Elt Ideal) ℓ) (c : Dev nD) :
    Value.res_main_v90 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := by
  unfold Value.res_main_v90 network readout hidden layer32 layer8 mean32 mean8 meanOf32 meanOf8 degreeOf srcOf dstOf srcRow dstRow
  rfl

end Cert.ReferenceIdeal.Terms

end
-- ==== Proof.RefDense.lean ====
/-
  The reference's dense pieces, read at an entry.

  On the extended reals the reference's matrix product is the plain sum of products, a bias row broadcast over the rows
  reads the bias at the entry's column, and the zero table reads zero; so each dense piece of the reference is the plain
  formula of `GraphLayer`, entry by entry.
-/
import proofs.«108382_j89627377533571_1_alg».proof.Proof.RefTerms

set_option maxRecDepth 16384

noncomputable section

namespace Cert.ReferenceIdeal.Terms

open Cert.ReferenceIdeal Cert.ReferenceIdeal.Gen Idealize.ShloMosaic Idealize.ShloMosaic.TcCoe Idealize.ShloMosaic.ValueIdx Idealize.SL.Sem
open scoped BigOperators

/-- The reference's matrix product at an entry: the sum over the 8 contracted features. -/
theorem dot8_apply (l : FVec Ideal S100000x8 .f32) (r : FVec Ideal S8x32 .f32) (i : S100000x32.Idx) :
    Host.dotGeneral dot_S100000x8_S8x32_S100000x32_1_0_0_1_n_n none l r i = ∑ k : Fin 8, l (ix2 (i 0) k) * r (ix2 k (i 1)) := by
  simp only [Host.dotGeneral]
  rw [Ideal.dotGeneral_apply]
  exact PlainDot.sum_contr_eq dot_S100000x8_S8x32_S100000x32_1_0_0_1_n_n rfl rfl
    (fun i q => by
      unfold DotDims.lhsIdx
      rw [dif_neg (show ¬(0 : Fin S100000x8.rank) ∈ dot_S100000x8_S8x32_S100000x32_1_0_0_1_n_n.lhsBatch by decide), dif_pos (show (0 : Fin S100000x8.rank) ∈ dot_S100000x8_S8x32_S100000x32_1_0_0_1_n_n.lhsNonContracting by decide)]
      rfl)
    (fun i q => dot_S100000x8_S8x32_S100000x32_1_0_0_1_n_n.lhsIdx_val_of_single rfl i q)
    (fun i q => dot_S100000x8_S8x32_S100000x32_1_0_0_1_n_n.rhsIdx_val_of_single rfl i q)
    (fun i q => by
      unfold DotDims.rhsIdx
      rw [dif_neg (show ¬(1 : Fin S8x32.rank) ∈ dot_S100000x8_S8x32_S100000x32_1_0_0_1_n_n.rhsBatch by decide), dif_pos (show (1 : Fin S8x32.rank) ∈ dot_S100000x8_S8x32_S100000x32_1_0_0_1_n_n.rhsNonContracting by decide)]
      rfl)
    l r i

/-- The reference's matrix product at an entry: the sum over the 32 contracted features. -/
theorem dot32_apply (l : FVec Ideal S100000x32 .f32) (r : FVec Ideal S32x32 .f32) (i : S100000x32.Idx) :
    Host.dotGeneral dot_S100000x32_S32x32_S100000x32_1_0_0_1_n_n none l r i = ∑ k : Fin 32, l (ix2 (i 0) k) * r (ix2 k (i 1)) := by
  simp only [Host.dotGeneral]
  rw [Ideal.dotGeneral_apply]
  exact PlainDot.sum_contr_eq dot_S100000x32_S32x32_S100000x32_1_0_0_1_n_n rfl rfl
    (fun i q => by
      unfold DotDims.lhsIdx
      rw [dif_neg (show ¬(0 : Fin S100000x32.rank) ∈ dot_S100000x32_S32x32_S100000x32_1_0_0_1_n_n.lhsBatch by decide), dif_pos (show (0 : Fin S100000x32.rank) ∈ dot_S100000x32_S32x32_S100000x32_1_0_0_1_n_n.lhsNonContracting by decide)]
      rfl)
    (fun i q => dot_S100000x32_S32x32_S100000x32_1_0_0_1_n_n.lhsIdx_val_of_single rfl i q)
    (fun i q => dot_S100000x32_S32x32_S100000x32_1_0_0_1_n_n.rhsIdx_val_of_single rfl i q)
    (fun i q => by
      unfold DotDims.rhsIdx
      rw [dif_neg (show ¬(1 : Fin S32x32.rank) ∈ dot_S100000x32_S32x32_S100000x32_1_0_0_1_n_n.rhsBatch by decide), dif_pos (show (1 : Fin S32x32.rank) ∈ dot_S100000x32_S32x32_S100000x32_1_0_0_1_n_n.rhsNonContracting by decide)]
      rfl)
    l r i

/-- The reference's matrix product at an entry: the sum over the 32 contracted features. -/
theorem dot32x3_apply (l : FVec Ideal S100000x32 .f32) (r : FVec Ideal S32x3 .f32) (i : S100000x3.Idx) :
    Host.dotGeneral dot_S100000x32_S32x3_S100000x3_1_0_0_1_n_n none l r i = ∑ k : Fin 32, l (ix2 (i 0) k) * r (ix2 k (i 1)) := by
  simp only [Host.dotGeneral]
  rw [Ideal.dotGeneral_apply]
  exact PlainDot.sum_contr_eq dot_S100000x32_S32x3_S100000x3_1_0_0_1_n_n rfl rfl
    (fun i q => by
      unfold DotDims.lhsIdx
      rw [dif_neg (show ¬(0 : Fin S100000x32.rank) ∈ dot_S100000x32_S32x3_S100000x3_1_0_0_1_n_n.lhsBatch by decide), dif_pos (show (0 : Fin S100000x32.rank) ∈ dot_S100000x32_S32x3_S100000x3_1_0_0_1_n_n.lhsNonContracting by decide)]
      rfl)
    (fun i q => dot_S100000x32_S32x3_S100000x3_1_0_0_1_n_n.lhsIdx_val_of_single rfl i q)
    (fun i q => dot_S100000x32_S32x3_S100000x3_1_0_0_1_n_n.rhsIdx_val_of_single rfl i q)
    (fun i q => by
      unfold DotDims.rhsIdx
      rw [dif_neg (show ¬(1 : Fin S32x3.rank) ∈ dot_S100000x32_S32x3_S100000x3_1_0_0_1_n_n.rhsBatch by decide), dif_pos (show (1 : Fin S32x3.rank) ∈ dot_S100000x32_S32x3_S100000x3_1_0_0_1_n_n.rhsNonContracting by decide)]
      rfl)
    l r i

/-- A 32-entry bias row broadcast over the 100000 rows reads, at any row, the bias at the entry's column. -/
theorem biasRow32 (bl : FVec Ideal S32 .f32) (i : S100000x32.Idx) :
    broadcastInDim S100000x32 ![0, 1] bcast_S1x32_S100000x32_0_1 (broadcastInDim S1x32 ![1] bcast_S32_S1x32_1 bl) i = bl (ix1 (i 1)) := by
  rw [broadcastInDim_apply _ bcast_S1x32_S100000x32_0_1 _ i (ix2 (0 : Fin 1) (i 1)) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])]
  exact broadcastInDim_apply _ bcast_S32_S1x32_1 bl (ix2 (0 : Fin 1) (i 1)) (ix1 (i 1)) (fun a => match a with
    | ⟨0, _⟩ => by show (i 1).val = if (32 : Nat) = 1 then 0 else (i 1).val; rw [if_neg (by decide)])

/-- A 3-entry bias row broadcast over the 100000 rows reads, at any row, the bias at the entry's column. -/
theorem biasRow3 (bl : FVec Ideal S3 .f32) (i : S100000x3.Idx) :
    broadcastInDim S100000x3 ![0, 1] bcast_S1x3_S100000x3_0_1 (broadcastInDim S1x3 ![1] bcast_S3_S1x3_1 bl) i = bl (ix1 (i 1)) := by
  rw [broadcastInDim_apply _ bcast_S1x3_S100000x3_0_1 _ i (ix2 (0 : Fin 1) (i 1)) (fun a => match a with
    | ⟨0, _⟩ => by show 0 = if (1 : Nat) = 1 then 0 else (i 0).val; rw [if_pos rfl]
    | ⟨1, _⟩ => by show (i 1).val = if (3 : Nat) = 1 then 0 else (i 1).val; rw [if_neg (by decide)])]
  exact broadcastInDim_apply _ bcast_S3_S1x3_1 bl (ix2 (0 : Fin 1) (i 1)) (ix1 (i 1)) (fun a => match a with
    | ⟨0, _⟩ => by show (i 1).val = if (3 : Nat) = 1 then 0 else (i 1).val; rw [if_neg (by decide)])

/-- The zero table reads zero everywhere. -/
theorem zeroTable (i : S100000x32.Idx) :
    broadcastInDim S100000x32 ![] bcast_S_S100000x32 (constant (F := Ideal) S_ .f32 0x00000000#32) i = Ideal.ofBits .f32 0x00000000#32 :=
  broadcastInDim_apply _ bcast_S_S100000x32 _ i ix0 (fun a => a.elim0)

/-- The first layer's dense half is the plain formula. -/
theorem layer8_eq (mean x : FVec Ideal S100000x8 .f32) (Wl : FVec Ideal S8x32 .f32) (bl : FVec Ideal S32 .f32) (Wr : FVec Ideal S8x32 .f32) :
    layer8 mean x Wl bl Wr = GraphLayer.combine mean x Wl bl Wr := by
  funext i
  unfold layer8 GraphLayer.combine
  rw [maximumf_apply, addf_apply, addf_apply, dot8_apply, dot8_apply, biasRow32, zeroTable]

/-- The later layers' dense half is the plain formula. -/
theorem layer32_eq (mean x : FVec Ideal S100000x32 .f32) (Wl : FVec Ideal S32x32 .f32) (bl : FVec Ideal S32 .f32) (Wr : FVec Ideal S32x32 .f32) :
    layer32 mean x Wl bl Wr = GraphLayer.combine mean x Wl bl Wr := by
  funext i
  unfold layer32 GraphLayer.combine
  rw [maximumf_apply, addf_apply, addf_apply, dot32_apply, dot32_apply, biasRow32, zeroTable]

/-- The read-out's hidden table at an entry. -/
theorem hidden_apply (h : FVec Ideal S100000x32 .f32) (W1 : FVec Ideal S32x32 .f32) (b1 : FVec Ideal S32 .f32) (r : Fin 100000) (j : Fin 32) :
    hidden h W1 b1 (ix2 r j)
      = max ((∑ k : Fin 32, h (ix2 r k) * W1 (ix2 k j)) + b1 (ix1 j)) (Ideal.ofBits .f32 0x00000000#32) := by
  unfold hidden
  rw [maximumf_apply, addf_apply, dot32_apply, biasRow32, zeroTable]

/-- The read-out is the plain formula. -/
theorem readout_eq (h : FVec Ideal S100000x32 .f32) (W1 : FVec Ideal S32x32 .f32) (b1 : FVec Ideal S32 .f32) (W2 : FVec Ideal S32x3 .f32)
    (b2 : FVec Ideal S3 .f32) : readout h W1 b1 W2 b2 = GraphLayer.readout h W1 b1 W2 b2 := by
  funext i
  obtain ⟨r, q, rfl⟩ : ∃ (r : Fin 100000) (q : Fin 3), i = ix2 r q := ⟨i 0, i 1, eq_ix2 i⟩
  unfold readout GraphLayer.readout
  rw [addf_apply, dot32x3_apply, biasRow3]
  show (∑ j : Fin 32, hidden h W1 b1 (ix2 r j) * W2 (ix2 j q)) + b2 (ix1 q) = _
  simp only [hidden_apply]

end Cert.ReferenceIdeal.Terms

end
-- ==== Proof.Whole.lean ====
/-
  The kernel program's result as the network of its arguments.

  The program is four stretches of host operations and four kernel launches. The contents of the buffers at the eight
  boundaries are followed from the launch: a stretch's results are its operations applied to what the boundary before it
  holds; a launch's result array is the layer's (or the read-out's) whole-array function of the arrays it finds; every other
  buffer keeps what it held. The neighbour averages are computed by the same host operations as the reference's, so they are
  carried as the reference's own functions of the tables going in, never opened; the launches' results meet the reference's
  dense pieces in the plain formulas of `GraphLayer`. At the end the result buffer holds the reference's network of the
  fifteen argument arrays.
-/
import proofs.«108382_j89627377533571_1_alg».proof.Proof.Gen.KernelIdeal.Frame
import proofs.«108382_j89627377533571_1_alg».proof.Proof.Layer0
import proofs.«108382_j89627377533571_1_alg».proof.Proof.Layer1
import proofs.«108382_j89627377533571_1_alg».proof.Proof.Layer2
import proofs.«108382_j89627377533571_1_alg».proof.Proof.Readout
import proofs.«108382_j89627377533571_1_alg».proof.Proof.RefTerms
import proofs.«108382_j89627377533571_1_alg».proof.Proof.RefDense
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.ShloMosaic.ValueIdx Idealize.SL.Sem
open Idealize.ShloMosaic.StableHlo (after_cons after_nil)
open Cert.ReferenceIdeal.Terms

variable (m : (ℓ : Loc nD τ sig) → Buf (Elt Ideal) ℓ) (ρ : Dev nD → PrngReg)

/-- A 32-entry bias kept as a one-row table reads, along its row, the bias. -/
theorem biasRow32 (b : FVec Ideal S32 .f32) :
    (fun i : S32.Idx => shapeCast S1x32 b shapeCasts_S32_S1x32 (ix2 (0 : Fin 1) (i 0))) = b :=
  funext fun i => (shapeCast_a_1a_apply b shapeCasts_S32_S1x32 0 (i 0)).trans (congrArg b (eq_ix1 i).symm)

/-- A 3-entry bias kept as a one-row table reads, along its row, the bias. -/
theorem biasRow3 (b : FVec Ideal S3 .f32) :
    (fun i : S3.Idx => shapeCast S1x3 b shapeCasts_S3_S1x3 (ix2 (0 : Fin 1) (i 0))) = b :=
  funext fun i => (shapeCast_a_1a_apply b shapeCasts_S3_S1x3 0 (i 0)).trans (congrArg b (eq_ix1 i).symm)

/-! ## What no stretch and no launch writes keeps its contents -/

theorem arg0_at1 (c : Dev nD) : W1 m ρ c (Proc.devRef .tc main_arg0) = m ((c : Thread nD τ).loc main_arg0) := by
  show StableHlo.after hostOps0 (W0 m ρ c) (Proc.devRef .tc main_arg0) = _
  after_results_simp

theorem arg2_at1 (c : Dev nD) : W1 m ρ c (Proc.devRef .tc main_arg2) = m ((c : Thread nD τ).loc main_arg2) := by
  show StableHlo.after hostOps0 (W0 m ρ c) (Proc.devRef .tc main_arg2) = _
  after_results_simp

theorem arg4_at1 (c : Dev nD) : W1 m ρ c (Proc.devRef .tc main_arg4) = m ((c : Thread nD τ).loc main_arg4) := by
  show StableHlo.after hostOps0 (W0 m ρ c) (Proc.devRef .tc main_arg4) = _
  after_results_simp

theorem arg5_at1 (c : Dev nD) : W1 m ρ c (Proc.devRef .tc main_arg5) = m ((c : Thread nD τ).loc main_arg5) := by
  show StableHlo.after hostOps0 (W0 m ρ c) (Proc.devRef .tc main_arg5) = _
  after_results_simp

theorem arg6_at1 (c : Dev nD) : W1 m ρ c (Proc.devRef .tc main_arg6) = m ((c : Thread nD τ).loc main_arg6) := by
  show StableHlo.after hostOps0 (W0 m ρ c) (Proc.devRef .tc main_arg6) = _
  after_results_simp

theorem arg7_at1 (c : Dev nD) : W1 m ρ c (Proc.devRef .tc main_arg7) = m ((c : Thread nD τ).loc main_arg7) := by
  show StableHlo.after hostOps0 (W0 m ρ c) (Proc.devRef .tc main_arg7) = _
  after_results_simp

theorem arg8_at1 (c : Dev nD) : W1 m ρ c (Proc.devRef .tc main_arg8) = m ((c : Thread nD τ).loc main_arg8) := by
  show StableHlo.after hostOps0 (W0 m ρ c) (Proc.devRef .tc main_arg8) = _
  after_results_simp

theorem arg9_at1 (c : Dev nD) : W1 m ρ c (Proc.devRef .tc main_arg9) = m ((c : Thread nD τ).loc main_arg9) := by
  show StableHlo.after hostOps0 (W0 m ρ c) (Proc.devRef .tc main_arg9) = _
  after_results_simp

theorem arg10_at1 (c : Dev nD) : W1 m ρ c (Proc.devRef .tc main_arg10) = m ((c : Thread nD τ).loc main_arg10) := by
  show StableHlo.after hostOps0 (W0 m ρ c) (Proc.devRef .tc main_arg10) = _
  after_results_simp

theorem arg11_at1 (c : Dev nD) : W1 m ρ c (Proc.devRef .tc main_arg11) = m ((c : Thread nD τ).loc main_arg11) := by
  show StableHlo.after hostOps0 (W0 m ρ c) (Proc.devRef .tc main_arg11) = _
  after_results_simp

theorem arg12_at1 (c : Dev nD) : W1 m ρ c (Proc.devRef .tc main_arg12) = m ((c : Thread nD τ).loc main_arg12) := by
  show StableHlo.after hostOps0 (W0 m ρ c) (Proc.devRef .tc main_arg12) = _
  after_results_simp

theorem arg13_at1 (c : Dev nD) : W1 m ρ c (Proc.devRef .tc main_arg13) = m ((c : Thread nD τ).loc main_arg13) := by
  show StableHlo.after hostOps0 (W0 m ρ c) (Proc.devRef .tc main_arg13) = _
  after_results_simp

theorem arg14_at1 (c : Dev nD) : W1 m ρ c (Proc.devRef .tc main_arg14) = m ((c : Thread nD τ).loc main_arg14) := by
  show StableHlo.after hostOps0 (W0 m ρ c) (Proc.devRef .tc main_arg14) = _
  after_results_simp

theorem src_keep2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem dst_keep2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem src_keep4 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by show StableHlo.after hostOps1 (W2 m ρ c) (Proc.devRef .tc main_v1) = _; after_results_simp
    _ = W1 m ρ c (Proc.devRef .tc main_v1) := W2_of_ne m ρ c main_v1 (by decide)

theorem dst_keep4 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by show StableHlo.after hostOps1 (W2 m ρ c) (Proc.devRef .tc main_v3) = _; after_results_simp
    _ = W1 m ρ c (Proc.devRef .tc main_v3) := W2_of_ne m ρ c main_v3 (by decide)

theorem arg5_keep2 (c : Dev nD) : W2 m ρ c (Proc.devRef .tc main_arg5) = W1 m ρ c (Proc.devRef .tc main_arg5) :=
  calc W2 m ρ c (Proc.devRef .tc main_arg5)
    _ = W1 m ρ c (Proc.devRef .tc main_arg5) := W2_of_ne m ρ c main_arg5 (by decide)

theorem arg5_at2 (c : Dev nD) : W2 m ρ c (Proc.devRef .tc main_arg5) = m ((c : Thread nD τ).loc main_arg5) :=
  (arg5_keep2 m ρ c).trans (arg5_at1 m ρ c)

theorem arg6_keep2 (c : Dev nD) : W2 m ρ c (Proc.devRef .tc main_arg6) = W1 m ρ c (Proc.devRef .tc main_arg6) :=
  calc W2 m ρ c (Proc.devRef .tc main_arg6)
    _ = W1 m ρ c (Proc.devRef .tc main_arg6) := W2_of_ne m ρ c main_arg6 (by decide)

theorem arg6_at2 (c : Dev nD) : W2 m ρ c (Proc.devRef .tc main_arg6) = m ((c : Thread nD τ).loc main_arg6) :=
  (arg6_keep2 m ρ c).trans (arg6_at1 m ρ c)

theorem arg7_keep2 (c : Dev nD) : W2 m ρ c (Proc.devRef .tc main_arg7) = W1 m ρ c (Proc.devRef .tc main_arg7) :=
  calc W2 m ρ c (Proc.devRef .tc main_arg7)
    _ = W1 m ρ c (Proc.devRef .tc main_arg7) := W2_of_ne m ρ c main_arg7 (by decide)

theorem arg7_at2 (c : Dev nD) : W2 m ρ c (Proc.devRef .tc main_arg7) = m ((c : Thread nD τ).loc main_arg7) :=
  (arg7_keep2 m ρ c).trans (arg7_at1 m ρ c)

theorem arg5_keep3 (c : Dev nD) : W3 m ρ c (Proc.devRef .tc main_arg5) = W1 m ρ c (Proc.devRef .tc main_arg5) :=
  calc W3 m ρ c (Proc.devRef .tc main_arg5)
    _ = W2 m ρ c (Proc.devRef .tc main_arg5) := by show StableHlo.after hostOps1 (W2 m ρ c) (Proc.devRef .tc main_arg5) = _; after_results_simp
    _ = W1 m ρ c (Proc.devRef .tc main_arg5) := W2_of_ne m ρ c main_arg5 (by decide)

theorem arg5_at3 (c : Dev nD) : W3 m ρ c (Proc.devRef .tc main_arg5) = m ((c : Thread nD τ).loc main_arg5) :=
  (arg5_keep3 m ρ c).trans (arg5_at1 m ρ c)

theorem arg7_keep3 (c : Dev nD) : W3 m ρ c (Proc.devRef .tc main_arg7) = W1 m ρ c (Proc.devRef .tc main_arg7) :=
  calc W3 m ρ c (Proc.devRef .tc main_arg7)
    _ = W2 m ρ c (Proc.devRef .tc main_arg7) := by show StableHlo.after hostOps1 (W2 m ρ c) (Proc.devRef .tc main_arg7) = _; after_results_simp
    _ = W1 m ρ c (Proc.devRef .tc main_arg7) := W2_of_ne m ρ c main_arg7 (by decide)

theorem arg7_at3 (c : Dev nD) : W3 m ρ c (Proc.devRef .tc main_arg7) = m ((c : Thread nD τ).loc main_arg7) :=
  (arg7_keep3 m ρ c).trans (arg7_at1 m ρ c)

theorem arg8_keep4 (c : Dev nD) : W4 m ρ c (Proc.devRef .tc main_arg8) = W1 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := by show StableHlo.after hostOps1 (W2 m ρ c) (Proc.devRef .tc main_arg8) = _; after_results_simp
    _ = W1 m ρ c (Proc.devRef .tc main_arg8) := W2_of_ne m ρ c main_arg8 (by decide)

theorem arg8_at4 (c : Dev nD) : W4 m ρ c (Proc.devRef .tc main_arg8) = m ((c : Thread nD τ).loc main_arg8) :=
  (arg8_keep4 m ρ c).trans (arg8_at1 m ρ c)

theorem arg9_keep4 (c : Dev nD) : W4 m ρ c (Proc.devRef .tc main_arg9) = W1 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := by show StableHlo.after hostOps1 (W2 m ρ c) (Proc.devRef .tc main_arg9) = _; after_results_simp
    _ = W1 m ρ c (Proc.devRef .tc main_arg9) := W2_of_ne m ρ c main_arg9 (by decide)

theorem arg9_at4 (c : Dev nD) : W4 m ρ c (Proc.devRef .tc main_arg9) = m ((c : Thread nD τ).loc main_arg9) :=
  (arg9_keep4 m ρ c).trans (arg9_at1 m ρ c)

theorem arg10_keep4 (c : Dev nD) : W4 m ρ c (Proc.devRef .tc main_arg10) = W1 m ρ c (Proc.devRef .tc main_arg10) :=
  calc W4 m ρ c (Proc.devRef .tc main_arg10)
    _ = W3 m ρ c (Proc.devRef .tc main_arg10) := W4_of_ne m ρ c main_arg10 (by decide)
    _ = W2 m ρ c (Proc.devRef .tc main_arg10) := by show StableHlo.after hostOps1 (W2 m ρ c) (Proc.devRef .tc main_arg10) = _; after_results_simp
    _ = W1 m ρ c (Proc.devRef .tc main_arg10) := W2_of_ne m ρ c main_arg10 (by decide)

theorem arg10_at4 (c : Dev nD) : W4 m ρ c (Proc.devRef .tc main_arg10) = m ((c : Thread nD τ).loc main_arg10) :=
  (arg10_keep4 m ρ c).trans (arg10_at1 m ρ c)

theorem arg8_keep5 (c : Dev nD) : W5 m ρ c (Proc.devRef .tc main_arg8) = W1 m ρ c (Proc.devRef .tc main_arg8) :=
  calc W5 m ρ c (Proc.devRef .tc main_arg8)
    _ = W4 m ρ c (Proc.devRef .tc main_arg8) := by show StableHlo.after hostOps2 (W4 m ρ c) (Proc.devRef .tc main_arg8) = _; after_results_simp
    _ = W3 m ρ c (Proc.devRef .tc main_arg8) := W4_of_ne m ρ c main_arg8 (by decide)
    _ = W2 m ρ c (Proc.devRef .tc main_arg8) := by show StableHlo.after hostOps1 (W2 m ρ c) (Proc.devRef .tc main_arg8) = _; after_results_simp
    _ = W1 m ρ c (Proc.devRef .tc main_arg8) := W2_of_ne m ρ c main_arg8 (by decide)

theorem arg8_at5 (c : Dev nD) : W5 m ρ c (Proc.devRef .tc main_arg8) = m ((c : Thread nD τ).loc main_arg8) :=
  (arg8_keep5 m ρ c).trans (arg8_at1 m ρ c)

theorem arg10_keep5 (c : Dev nD) : W5 m ρ c (Proc.devRef .tc main_arg10) = W1 m ρ c (Proc.devRef .tc main_arg10) :=
  calc W5 m ρ c (Proc.devRef .tc main_arg10)
    _ = W4 m ρ c (Proc.devRef .tc main_arg10) := by show StableHlo.after hostOps2 (W4 m ρ c) (Proc.devRef .tc main_arg10) = _; after_results_simp
    _ = W3 m ρ c (Proc.devRef .tc main_arg10) := W4_of_ne m ρ c main_arg10 (by decide)
    _ = W2 m ρ c (Proc.devRef .tc main_arg10) := by show StableHlo.after hostOps1 (W2 m ρ c) (Proc.devRef .tc main_arg10) = _; after_results_simp
    _ = W1 m ρ c (Proc.devRef .tc main_arg10) := W2_of_ne m ρ c main_arg10 (by decide)

theorem arg10_at5 (c : Dev nD) : W5 m ρ c (Proc.devRef .tc main_arg10) = m ((c : Thread nD τ).loc main_arg10) :=
  (arg10_keep5 m ρ c).trans (arg10_at1 m ρ c)

theorem arg11_keep6 (c : Dev nD) : W6 m ρ c (Proc.devRef .tc main_arg11) = W1 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := by show StableHlo.after hostOps2 (W4 m ρ c) (Proc.devRef .tc main_arg11) = _; after_results_simp
    _ = W3 m ρ c (Proc.devRef .tc main_arg11) := W4_of_ne m ρ c main_arg11 (by decide)
    _ = W2 m ρ c (Proc.devRef .tc main_arg11) := by show StableHlo.after hostOps1 (W2 m ρ c) (Proc.devRef .tc main_arg11) = _; after_results_simp
    _ = W1 m ρ c (Proc.devRef .tc main_arg11) := W2_of_ne m ρ c main_arg11 (by decide)

theorem arg11_at6 (c : Dev nD) : W6 m ρ c (Proc.devRef .tc main_arg11) = m ((c : Thread nD τ).loc main_arg11) :=
  (arg11_keep6 m ρ c).trans (arg11_at1 m ρ c)

theorem arg12_keep6 (c : Dev nD) : W6 m ρ c (Proc.devRef .tc main_arg12) = W1 m ρ c (Proc.devRef .tc main_arg12) :=
  calc W6 m ρ c (Proc.devRef .tc main_arg12)
    _ = W5 m ρ c (Proc.devRef .tc main_arg12) := W6_of_ne m ρ c main_arg12 (by decide)
    _ = W4 m ρ c (Proc.devRef .tc main_arg12) := by show StableHlo.after hostOps2 (W4 m ρ c) (Proc.devRef .tc main_arg12) = _; after_results_simp
    _ = W3 m ρ c (Proc.devRef .tc main_arg12) := W4_of_ne m ρ c main_arg12 (by decide)
    _ = W2 m ρ c (Proc.devRef .tc main_arg12) := by show StableHlo.after hostOps1 (W2 m ρ c) (Proc.devRef .tc main_arg12) = _; after_results_simp
    _ = W1 m ρ c (Proc.devRef .tc main_arg12) := W2_of_ne m ρ c main_arg12 (by decide)

theorem arg12_at6 (c : Dev nD) : W6 m ρ c (Proc.devRef .tc main_arg12) = m ((c : Thread nD τ).loc main_arg12) :=
  (arg12_keep6 m ρ c).trans (arg12_at1 m ρ c)

theorem arg13_keep6 (c : Dev nD) : W6 m ρ c (Proc.devRef .tc main_arg13) = W1 m ρ c (Proc.devRef .tc main_arg13) :=
  calc W6 m ρ c (Proc.devRef .tc main_arg13)
    _ = W5 m ρ c (Proc.devRef .tc main_arg13) := W6_of_ne m ρ c main_arg13 (by decide)
    _ = W4 m ρ c (Proc.devRef .tc main_arg13) := by show StableHlo.after hostOps2 (W4 m ρ c) (Proc.devRef .tc main_arg13) = _; after_results_simp
    _ = W3 m ρ c (Proc.devRef .tc main_arg13) := W4_of_ne m ρ c main_arg13 (by decide)
    _ = W2 m ρ c (Proc.devRef .tc main_arg13) := by show StableHlo.after hostOps1 (W2 m ρ c) (Proc.devRef .tc main_arg13) = _; after_results_simp
    _ = W1 m ρ c (Proc.devRef .tc main_arg13) := W2_of_ne m ρ c main_arg13 (by decide)

theorem arg13_at6 (c : Dev nD) : W6 m ρ c (Proc.devRef .tc main_arg13) = m ((c : Thread nD τ).loc main_arg13) :=
  (arg13_keep6 m ρ c).trans (arg13_at1 m ρ c)

theorem arg14_keep6 (c : Dev nD) : W6 m ρ c (Proc.devRef .tc main_arg14) = W1 m ρ c (Proc.devRef .tc main_arg14) :=
  calc W6 m ρ c (Proc.devRef .tc main_arg14)
    _ = W5 m ρ c (Proc.devRef .tc main_arg14) := W6_of_ne m ρ c main_arg14 (by decide)
    _ = W4 m ρ c (Proc.devRef .tc main_arg14) := by show StableHlo.after hostOps2 (W4 m ρ c) (Proc.devRef .tc main_arg14) = _; after_results_simp
    _ = W3 m ρ c (Proc.devRef .tc main_arg14) := W4_of_ne m ρ c main_arg14 (by decide)
    _ = W2 m ρ c (Proc.devRef .tc main_arg14) := by show StableHlo.after hostOps1 (W2 m ρ c) (Proc.devRef .tc main_arg14) = _; after_results_simp
    _ = W1 m ρ c (Proc.devRef .tc main_arg14) := W2_of_ne m ρ c main_arg14 (by decide)

theorem arg14_at6 (c : Dev nD) : W6 m ρ c (Proc.devRef .tc main_arg14) = m ((c : Thread nD τ).loc main_arg14) :=
  (arg14_keep6 m ρ c).trans (arg14_at1 m ρ c)

theorem arg11_keep7 (c : Dev nD) : W7 m ρ c (Proc.devRef .tc main_arg11) = W1 m ρ c (Proc.devRef .tc main_arg11) :=
  calc W7 m ρ c (Proc.devRef .tc main_arg11)
    _ = W6 m ρ c (Proc.devRef .tc main_arg11) := by show StableHlo.after hostOps3 (W6 m ρ c) (Proc.devRef .tc main_arg11) = _; after_results_simp
    _ = W5 m ρ c (Proc.devRef .tc main_arg11) := W6_of_ne m ρ c main_arg11 (by decide)
    _ = W4 m ρ c (Proc.devRef .tc main_arg11) := by show StableHlo.after hostOps2 (W4 m ρ c) (Proc.devRef .tc main_arg11) = _; after_results_simp
    _ = W3 m ρ c (Proc.devRef .tc main_arg11) := W4_of_ne m ρ c main_arg11 (by decide)
    _ = W2 m ρ c (Proc.devRef .tc main_arg11) := by show StableHlo.after hostOps1 (W2 m ρ c) (Proc.devRef .tc main_arg11) = _; after_results_simp
    _ = W1 m ρ c (Proc.devRef .tc main_arg11) := W2_of_ne m ρ c main_arg11 (by decide)

theorem arg11_at7 (c : Dev nD) : W7 m ρ c (Proc.devRef .tc main_arg11) = m ((c : Thread nD τ).loc main_arg11) :=
  (arg11_keep7 m ρ c).trans (arg11_at1 m ρ c)

theorem arg13_keep7 (c : Dev nD) : W7 m ρ c (Proc.devRef .tc main_arg13) = W1 m ρ c (Proc.devRef .tc main_arg13) :=
  calc W7 m ρ c (Proc.devRef .tc main_arg13)
    _ = W6 m ρ c (Proc.devRef .tc main_arg13) := by show StableHlo.after hostOps3 (W6 m ρ c) (Proc.devRef .tc main_arg13) = _; after_results_simp
    _ = W5 m ρ c (Proc.devRef .tc main_arg13) := W6_of_ne m ρ c main_arg13 (by decide)
    _ = W4 m ρ c (Proc.devRef .tc main_arg13) := by show StableHlo.after hostOps2 (W4 m ρ c) (Proc.devRef .tc main_arg13) = _; after_results_simp
    _ = W3 m ρ c (Proc.devRef .tc main_arg13) := W4_of_ne m ρ c main_arg13 (by decide)
    _ = W2 m ρ c (Proc.devRef .tc main_arg13) := by show StableHlo.after hostOps1 (W2 m ρ c) (Proc.devRef .tc main_arg13) = _; after_results_simp
    _ = W1 m ρ c (Proc.devRef .tc main_arg13) := W2_of_ne m ρ c main_arg13 (by decide)

theorem arg13_at7 (c : Dev nD) : W7 m ρ c (Proc.devRef .tc main_arg13) = m ((c : Thread nD τ).loc main_arg13) :=
  (arg13_keep7 m ρ c).trans (arg13_at1 m ρ c)

/-! ## The first stretch: the edge table's two rows, the first neighbour average, the first bias as a row -/

theorem src_at1 (c : Dev nD) : W1 m ρ c (Proc.devRef .tc main_v1) = srcRow (m ((c : Thread nD τ).loc main_arg1)) := by
  show StableHlo.after hostOps0 (W0 m ρ c) (Proc.devRef .tc main_v1) = _
  after_results_simp
  rfl

theorem dst_at1 (c : Dev nD) : W1 m ρ c (Proc.devRef .tc main_v3) = dstRow (m ((c : Thread nD τ).loc main_arg1)) := by
  show StableHlo.after hostOps0 (W0 m ρ c) (Proc.devRef .tc main_v3) = _
  after_results_simp
  rfl

theorem mean_at1 (c : Dev nD) : W1 m ρ c (Proc.devRef .tc main_v22) = mean8 (m ((c : Thread nD τ).loc main_arg0)) (m ((c : Thread nD τ).loc main_arg1)) := by
  show StableHlo.after hostOps0 (W0 m ρ c) (Proc.devRef .tc main_v22) = _
  after_results_simp
  rfl

theorem bias_at1 (c : Dev nD) : W1 m ρ c (Proc.devRef .tc main_v23) = shapeCast S1x32 (m ((c : Thread nD τ).loc main_arg3)) shapeCasts_S32_S1x32 := by
  show StableHlo.after hostOps0 (W0 m ρ c) (Proc.devRef .tc main_v23) = _
  after_results_simp
  rfl

/-! ## The tables after each layer, as the reference names them -/

/-- The table after the first layer. -/
def h1 (c : Dev nD) : FVec Ideal Cert.ReferenceIdeal.S100000x32 .f32 :=
  layer8 (mean8 (m ((c : Thread nD τ).loc main_arg0)) (m ((c : Thread nD τ).loc main_arg1))) (m ((c : Thread nD τ).loc main_arg0)) (m ((c : Thread nD τ).loc main_arg2)) (m ((c : Thread nD τ).loc main_arg3)) (m ((c : Thread nD τ).loc main_arg4))

/-- The table after the second layer. -/
def h2 (c : Dev nD) : FVec Ideal Cert.ReferenceIdeal.S100000x32 .f32 :=
  layer32 (mean32 (h1 m c) (m ((c : Thread nD τ).loc main_arg1))) (h1 m c) (m ((c : Thread nD τ).loc main_arg5)) (m ((c : Thread nD τ).loc main_arg6)) (m ((c : Thread nD τ).loc main_arg7))

/-- The table after the third layer. -/
def h3 (c : Dev nD) : FVec Ideal Cert.ReferenceIdeal.S100000x32 .f32 :=
  layer32 (mean32 (h2 m c) (m ((c : Thread nD τ).loc main_arg1))) (h2 m c) (m ((c : Thread nD τ).loc main_arg8)) (m ((c : Thread nD τ).loc main_arg9)) (m ((c : Thread nD τ).loc main_arg10))

/-! ## The first launch -/

theorem layer_at2 (c : Dev nD) : W2 m ρ c (Proc.devRef .tc main_v24) = h1 m c := by
  refine (W2_arr m ρ c 5).trans ((Layer0.result (V1 m ρ) c).trans ?_)
  unfold Layer0.whole h1
  show GraphLayer.combine (W1 m ρ c (Proc.devRef .tc main_v22)) (W1 m ρ c (Proc.devRef .tc main_arg0)) (W1 m ρ c (Proc.devRef .tc main_arg2))
    (fun i => W1 m ρ c (Proc.devRef .tc main_v23) (ix2 (0 : Fin 1) (i 0))) (W1 m ρ c (Proc.devRef .tc main_arg4)) = _
  rw [mean_at1, arg0_at1, arg2_at1, bias_at1, arg4_at1, biasRow32, layer8_eq]

/-! ## The second stretch and launch -/

theorem mean_at3 (c : Dev nD) : W3 m ρ c (Proc.devRef .tc main_v43) = meanOf32 (W2 m ρ c (Proc.devRef .tc main_v24)) (W2 m ρ c (Proc.devRef .tc main_v1)) (W2 m ρ c (Proc.devRef .tc main_v3)) := by
  show StableHlo.after hostOps1 (W2 m ρ c) (Proc.devRef .tc main_v43) = _
  after_results_simp
  rfl

theorem bias_at3 (c : Dev nD) : W3 m ρ c (Proc.devRef .tc main_v44) = shapeCast S1x32 (W2 m ρ c (Proc.devRef .tc main_arg6)) shapeCasts_S32_S1x32 := by
  show StableHlo.after hostOps1 (W2 m ρ c) (Proc.devRef .tc main_v44) = _
  after_results_simp
  rfl

theorem prev_at3 (c : Dev nD) : W3 m ρ c (Proc.devRef .tc main_v24) = W2 m ρ c (Proc.devRef .tc main_v24) := by
  show StableHlo.after hostOps1 (W2 m ρ c) (Proc.devRef .tc main_v24) = _
  after_results_simp

theorem layer_at4 (c : Dev nD) : W4 m ρ c (Proc.devRef .tc main_v45) = h2 m c := by
  refine (W4_arr m ρ c 5).trans ((Layer1.result (V3 m ρ) c).trans ?_)
  unfold Layer1.whole h2 mean32
  show GraphLayer.combine (W3 m ρ c (Proc.devRef .tc main_v43)) (W3 m ρ c (Proc.devRef .tc main_v24)) (W3 m ρ c (Proc.devRef .tc main_arg5))
    (fun i => W3 m ρ c (Proc.devRef .tc main_v44) (ix2 (0 : Fin 1) (i 0))) (W3 m ρ c (Proc.devRef .tc main_arg7)) = _
  rw [mean_at3, prev_at3, arg5_at3, bias_at3, arg7_at3, layer_at2, src_keep2, dst_keep2, src_at1, dst_at1, arg6_at2, biasRow32, layer32_eq]

/-! ## The third stretch and launch -/

theorem mean_at5 (c : Dev nD) : W5 m ρ c (Proc.devRef .tc main_v64) = meanOf32 (W4 m ρ c (Proc.devRef .tc main_v45)) (W4 m ρ c (Proc.devRef .tc main_v1)) (W4 m ρ c (Proc.devRef .tc main_v3)) := by
  show StableHlo.after hostOps2 (W4 m ρ c) (Proc.devRef .tc main_v64) = _
  after_results_simp
  rfl

theorem bias_at5 (c : Dev nD) : W5 m ρ c (Proc.devRef .tc main_v65) = shapeCast S1x32 (W4 m ρ c (Proc.devRef .tc main_arg9)) shapeCasts_S32_S1x32 := by
  show StableHlo.after hostOps2 (W4 m ρ c) (Proc.devRef .tc main_v65) = _
  after_results_simp
  rfl

theorem prev_at5 (c : Dev nD) : W5 m ρ c (Proc.devRef .tc main_v45) = W4 m ρ c (Proc.devRef .tc main_v45) := by
  show StableHlo.after hostOps2 (W4 m ρ c) (Proc.devRef .tc main_v45) = _
  after_results_simp

theorem layer_at6 (c : Dev nD) : W6 m ρ c (Proc.devRef .tc main_v66) = h3 m c := by
  refine (W6_arr m ρ c 5).trans ((Layer2.result (V5 m ρ) c).trans ?_)
  unfold Layer2.whole h3 mean32
  show GraphLayer.combine (W5 m ρ c (Proc.devRef .tc main_v64)) (W5 m ρ c (Proc.devRef .tc main_v45)) (W5 m ρ c (Proc.devRef .tc main_arg8))
    (fun i => W5 m ρ c (Proc.devRef .tc main_v65) (ix2 (0 : Fin 1) (i 0))) (W5 m ρ c (Proc.devRef .tc main_arg10)) = _
  rw [mean_at5, prev_at5, arg8_at5, bias_at5, arg10_at5, layer_at4, src_keep4, dst_keep4, src_at1, dst_at1, arg9_at4, biasRow32, layer32_eq]

/-! ## The last stretch and the read-out's launch -/

theorem bias1_at7 (c : Dev nD) : W7 m ρ c (Proc.devRef .tc main_v67) = shapeCast S1x32 (W6 m ρ c (Proc.devRef .tc main_arg12)) shapeCasts_S32_S1x32 := by
  show StableHlo.after hostOps3 (W6 m ρ c) (Proc.devRef .tc main_v67) = _
  after_results_simp
  rfl

theorem bias2_at7 (c : Dev nD) : W7 m ρ c (Proc.devRef .tc main_v68) = shapeCast S1x3 (W6 m ρ c (Proc.devRef .tc main_arg14)) shapeCasts_S3_S1x3 := by
  show StableHlo.after hostOps3 (W6 m ρ c) (Proc.devRef .tc main_v68) = _
  after_results_simp
  rfl

theorem prev_at7 (c : Dev nD) : W7 m ρ c (Proc.devRef .tc main_v66) = W6 m ρ c (Proc.devRef .tc main_v66) := by
  show StableHlo.after hostOps3 (W6 m ρ c) (Proc.devRef .tc main_v66) = _
  after_results_simp

/-- The result buffer ends at the reference's network of the fifteen argument arrays. -/
theorem result (c : Dev nD) :
    W8 m ρ c (Proc.devRef .tc main_v69)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 5).trans ((Readout.result (V7 m ρ) c).trans ?_)
  unfold Readout.whole
  show GraphLayer.readout (W7 m ρ c (Proc.devRef .tc main_v66)) (W7 m ρ c (Proc.devRef .tc main_arg11)) (fun i => W7 m ρ c (Proc.devRef .tc main_v67) (ix2 (0 : Fin 1) (i 0)))
    (W7 m ρ c (Proc.devRef .tc main_arg13)) (fun i => W7 m ρ c (Proc.devRef .tc main_v68) (ix2 (0 : Fin 1) (i 0))) = _
  rw [prev_at7, arg11_at7, bias1_at7, arg13_at7, bias2_at7, layer_at6, arg12_at6, arg14_at6, biasRow32, biasRow3, ← readout_eq]
  rfl

end Cert.KernelIdeal.Whole

end
-- ==== Proof.lean ====
/-
  A three-layer neighbourhood-averaging graph network with a two-layer read-out, on 100000 nodes and 1600000 edges:
  the kernel program against the plain reference, over the extended reals.

  Both programs compute each layer's neighbour average with the same host operations (gather the source rows of the
  edges, add them into their destination rows, divide by the in-degree clipped below at one). The kernel program then
  computes the dense half of each layer, max (mean·Wl + bl + x·Wr) 0, and the read-out, max (h·W1 + b1) 0 · W2 + b2, in
  kernel launches over blocks of 10000 rows with the operands passed through a narrower number format; the reference
  computes them with whole matrix products. On the extended reals a change of format is the identity and a matrix product
  into the zero table is the sum of products, so a launch's result array, block by block, is the same table as the
  reference's (the two sides add the bias and the second product in the same order, so no law of arithmetic beyond
  reading the sums is needed, and the inputs' finiteness is never used). The neighbour averages are the same functions
  of equal tables. Hence the two results are equal, entry by entry.

  The three frames: the two kernel programs' runs over their segments, and the reference's run with its result dropped.
  Nothing was rewritten when the kernel program was read over the extended reals, so there is nothing to preserve.
-/
import proofs.«108382_j89627377533571_1_alg».proof.Defs
import proofs.«108382_j89627377533571_1_alg».proof.Proof.Gen.Kernel
import proofs.«108382_j89627377533571_1_alg».proof.Proof.Gen.Kernel.Skeleton
import proofs.«108382_j89627377533571_1_alg».proof.Proof.Gen.Kernel.Launch
import proofs.«108382_j89627377533571_1_alg».proof.Proof.Gen.Kernel.Points
import proofs.«108382_j89627377533571_1_alg».proof.Proof.Gen.Kernel.Frame
import proofs.«108382_j89627377533571_1_alg».proof.Proof.Gen.KernelIdeal
import proofs.«108382_j89627377533571_1_alg».proof.Proof.Gen.KernelIdeal.Skeleton
import proofs.«108382_j89627377533571_1_alg».proof.Proof.Gen.KernelIdeal.Launch
import proofs.«108382_j89627377533571_1_alg».proof.Proof.Gen.KernelIdeal.Points
import proofs.«108382_j89627377533571_1_alg».proof.Proof.Gen.KernelIdeal.Frame
import proofs.«108382_j89627377533571_1_alg».proof.Proof.Gen.ReferenceIdeal
import proofs.«108382_j89627377533571_1_alg».proof.Proof.Gen.ReferenceIdeal.Run
import proofs.«108382_j89627377533571_1_alg».proof.Proof.Gen.ReferenceIdeal.Read
import proofs.«108382_j89627377533571_1_alg».proof.Proof.Gen.Pre_finite_inputs
import proofs.«108382_j89627377533571_1_alg».proof.Proof.KernelRun
import proofs.«108382_j89627377533571_1_alg».proof.Proof.Whole
import proofs.«108382_j89627377533571_1_alg».proof.Proof.RefTerms
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the network of the argument arrays, and the argument arrays agree. -/
theorem algebraic : Cert.algebraic_KernelIdeal_ReferenceIdeal := by
  intro m ρ m' ρ' _ hagree
  refine ⟨fun c => Cert.KernelIdeal.Gen.W8 m ρ c (Proc.devRef .tc Cert.KernelIdeal.main_v69),
    Cert.KernelIdeal.Named.run_with_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Terms.res_eq, a0, a1, a2, a3, a4, a5, a6, a7, a8, a9, a10, a11, a12, a13, a14]
  exact (Cert.KernelIdeal.Whole.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
